-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x128 .f32) (main_arg11 : FVec F S128 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x128 .f32) (main_arg11 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x32 .f32) (main_arg1 : IVec S2x1600000 32) (main_arg2 : FVec F S32x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x128 .f32) (main_arg11 : FVec F S128 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x128 : Shape := ⟨2, ![1, 128]⟩
abbrev S100000x128 : Shape := ⟨2, ![100000, 128]⟩
abbrev S10000x128 : Shape := ⟨2, ![10000, 128]⟩

abbrev nBuf : Space → Nat
  | .hbm => 80
  | .vmem => 42
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S1x64, .f32⟩
  | .hbm, ⟨17, _⟩ => ⟨S100000x64, .f32⟩
  | .hbm, ⟨18, _⟩ => ⟨S1x64, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S_, .f32⟩
  | .hbm, ⟨35, _⟩ => ⟨S1600000, .f32⟩
  | .hbm, ⟨36, _⟩ => ⟨S_, .f32⟩
  | .hbm, ⟨37, _⟩ => ⟨S100000, .f32⟩
  | .hbm, ⟨38, _⟩ => ⟨S1600000x1, .i32⟩
  | .hbm, ⟨39, _⟩ => ⟨S100000, .f32⟩
  | .hbm, ⟨40, _⟩ => ⟨S_, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S1x128, .f32⟩
  | .hbm, ⟨79, _⟩ => ⟨S100000x128, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S64x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S64x64, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28_0 : Ref sig .tc := ⟨.hbm, 49, rfl⟩
abbrev main_v28_1 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_call1_v0 : Ref sig .tc := ⟨.hbm, 71, rfl⟩
abbrev main_call1_v1 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  dot_S10000x32_S32x64_S10000x64_1_0_0_1_n_n_wf : DotDims.WF S10000x32 S32x64 S10000x64 [1] [0] [0] [1] [] []
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x128.size a ≤ S64x128.size a
  hwx5_1 : ∀ i : grid5.Coords, EltTy.bits .f32 = 32 ∨ (Rect.block (s := S64x128) S64x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S100000x128.size a
  hwx5_3 : ∀ i : grid5.Coords, EltTy.bits .f32 = 32 ∨ (Rect.block (s := S100000x128) S10000x128.size (cc5_transform_3 i) (hinb5_3 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S10000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_1) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v26) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v28_0) S10000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v28_1) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v46) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28_1) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v47) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v47) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S64x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v48) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v49) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000x64, .f32⟩
  | .hbm, ⟨17, _⟩ => ⟨S1x64, .f32⟩
  | .hbm, ⟨18, _⟩ => ⟨S100000x64, .f32⟩
  | .hbm, ⟨19, _⟩ => ⟨S100000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S_, .f32⟩
  | .hbm, ⟨35, _⟩ => ⟨S1600000, .f32⟩
  | .hbm, ⟨36, _⟩ => ⟨S_, .f32⟩
  | .hbm, ⟨37, _⟩ => ⟨S100000, .f32⟩
  | .hbm, ⟨38, _⟩ => ⟨S1600000x1, .i32⟩
  | .hbm, ⟨39, _⟩ => ⟨S100000, .f32⟩
  | .hbm, ⟨40, _⟩ => ⟨S_, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S_, .f32⟩
  | .hbm, ⟨70, _⟩ => ⟨S1600000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000x1, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_cst : Ref sig .tc := ⟨.hbm, 52, rfl⟩
abbrev main_call1_v0 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_call2_v0 : Ref sig .tc := ⟨.hbm, 76, rfl⟩
abbrev main_call2_v1 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call3_cst : Ref sig .tc := ⟨.hbm, 87, rfl⟩
abbrev main_call3_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x128_S100000x128_1_0_0_1_n_n_wf : DotDims.WF S100000x64 S64x128 S100000x128 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.KernelRun.lean ====
/-
  The run of the six-step program with every buffer's final contents named.

  The program alternates stretches of host operations with the six tiled steps. Between two consecutive segments the
  core's buffers hold known contents: after a host stretch, the stretch's operations applied to what was there; after a
  tiled step, the step's arrays at what its write-backs leave and every other buffer as it was. Running the segments in
  order from the launch memory, every weakly fair execution ends, and every buffer outside the steps' scoped staging
  memory ends at the contents of the last boundary. The unchanged arguments and the result array are particular buffers of
  that statement.

  A host stretch leaves alone every buffer it does not write; which buffers a stretch writes is read off its list of
  operations once, and then "this buffer is not one of them" is decided.
-/
import proofs.«134579_j37769942401472_1_alg».proof.Proof.Gen.KernelIdeal.Frame
import Idealize.ShloMosaic.Lib.StableHlo.Run

set_option maxRecDepth 16384

noncomputable section

namespace Cert.Gnn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- What the launch owns of the steps' staging cells. -/
abbrev launchElt : UR sig nD τ := initOf (Pipeline.cells cfgs cellOf_inj) (Pipeline.launchToks cfgs cellOf_inj)

/-- At the end a core's thread holds its unscoped buffers at the last boundary's contents; read against the machine
    state, each of those buffers of the final memory is that content. -/
theorem read_back (c : Dev nD) (s' : Phys nD τ sig (Elt F)) :
    iprop(Tₙ m ρ c ∗ SI s') ⊢ |={Set.univ}=> iprop(⌜∀ b ∈ Pipeline.ucRefs τ sig, s'.mem.mem (((c : Thread nD τ)).1, b) = W16 m ρ c b⌝ ∗ SI s') := by
  iintro ⟨⟨Hheld, -⟩, Hstate⟩
  unfold StableHlo.held
  imodintro
  iapply (pointsTo_read_all (Pipeline.ucRefs τ sig) (fun b => (((c : Thread nD τ)).1, b)) (W16 m ρ c) s')
  isplitl [Hheld] <;> iassumption

-- the run theorem's implicit arguments are found by unifying its conclusion with this one, which takes unfolding plain
-- definitions in a metavariable's type
set_option backward.isDefEq.respectTransparency.types false in
/-- Every weakly fair execution of the program ends, nothing faulting, with every unscoped buffer of every core at the
    last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := launchElt)
    (hu₀ := by
      iintro Hlaunch
      imodintro
      isplitl [Hlaunch]
      · iapply (show (ownU launchElt : sProp 𝕄) ⊢ BI.own (emb₁ launchElt) from .rfl)
        iexact Hlaunch
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hprng, -⟩, -⟩
      imodintro
      isplitl [Hheld]; · iexact Hheld
      isplitl [Hprng]; · iexists _; iexact Hprng
      iexists ∅; iexact Howes)
    (QY := fun c s => ∀ b ∈ Pipeline.ucRefs τ sig, s.mem (((c : Thread nD τ)).1, b) = W16 m ρ c b)
    (hfin := fun c s' => read_back m ρ c s')
    (hQ := fun s h => h)

/-- The same run with the result array and the twelve arguments picked out. -/
theorem run_result : θ_run defs (onTc (τ := τ) (main (F := F))) ⟨m, fun _ => 0, ρ⟩ (fun r => ∀ c : Dev nD,
      r.2.mem ((c.tc : Thread nD τ).loc main_v49) = W16 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v49 (by decide)),
     (h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c),
     (h c _ (mem_uc main_arg8 (by decide))).trans (W16_main_arg8 m ρ c),
     (h c _ (mem_uc main_arg9 (by decide))).trans (W16_main_arg9 m ρ c),
     (h c _ (mem_uc main_arg10 (by decide))).trans (W16_main_arg10 m ρ c),
     (h c _ (mem_uc main_arg11 (by decide))).trans (W16_main_arg11 m ρ c)⟩)
    (run_all m ρ)

end Cert.Gnn.Run

end
-- ==== Proof.KernelKeeps.lean ====
/-
  Which buffers each host stretch writes, and that it keeps the others.

  A host stretch is a list of operations, each writing one buffer. A buffer that is none of those keeps its contents
  through the stretch, and a buffer that is no array of a tiled step keeps its contents through the step. Chained, a buffer
  nothing has written yet still holds what it held at the first boundary; the chains below stop at the entry of each step
  that reads such a buffer.
-/
import proofs.«134579_j37769942401472_1_alg».proof.Proof.Gen.KernelIdeal.Frame
import Idealize.ShloMosaic.Lib.StableHlo.Run

set_option maxRecDepth 16384

noncomputable section

namespace Cert.Gnn.Keeps

open Idealize.ShloMosaic Idealize.ShloMosaic.TcCoe Idealize.SL.Sem Idealize.ShloMosaic.StableHlo
open Cert.KernelIdeal Cert.KernelIdeal.Gen

variable {F : FTy → Type} [FloatOps F]

/-- The device buffers of a list of references. -/
abbrev bufsOf (l : List (Ref sig .tc)) : Finset (DevRef τ sig) := (l.map (Proc.devRef (τ := τ) .tc)).toFinset

/-- What this stretch writes: the two index rows cut out of the edge list and the embedding bias made a row. -/
abbrev wr0 : List (Ref sig .tc) := [main_v0, main_v1, main_v2, main_v3, main_v4]
theorem writes0 : (hostOps0 : List (HloOp τ sig (Elt F))).Forall fun op => op.writes ⊆ bufsOf wr0 := by
  simp only [hostOps0, List.Forall, nullary_writes, unary_writes, binary_writes, ternary_writes, quaternary_writes, reshape_writes,
    binaryIndexed_writes, Finset.singleton_subset_iff, List.mem_toFinset]
  repeat' apply And.intro
  all_goals exact List.mem_map.mpr ⟨_, by decide, rfl⟩
/-- It keeps every other buffer. -/
theorem keep0 (W : Valuation τ sig (Elt F)) (r : Ref sig .tc) (hr : r ∉ wr0) :
    after hostOps0 W (Proc.devRef .tc r) = W (Proc.devRef .tc r) :=
  after_of_writes_sub _ _ writes0 hr

/-- What this stretch writes: the first layer's bias made a row. -/
abbrev wr1 : List (Ref sig .tc) := [main_v6]
theorem writes1 : (hostOps1 : List (HloOp τ sig (Elt F))).Forall fun op => op.writes ⊆ bufsOf wr1 := by
  simp only [hostOps1, List.Forall, nullary_writes, unary_writes, binary_writes, ternary_writes, quaternary_writes, reshape_writes,
    binaryIndexed_writes, Finset.singleton_subset_iff, List.mem_toFinset]
  repeat' apply And.intro
  all_goals exact List.mem_map.mpr ⟨_, by decide, rfl⟩
/-- It keeps every other buffer. -/
theorem keep1 (W : Valuation τ sig (Elt F)) (r : Ref sig .tc) (hr : r ∉ wr1) :
    after hostOps1 W (Proc.devRef .tc r) = W (Proc.devRef .tc r) :=
  after_of_writes_sub _ _ writes1 hr

/-- What this stretch writes: the first layer's gather, its two scatter-adds and their constants. -/
abbrev wr2 : List (Ref sig .tc) := [main_c, main_v8, main_v9, main_c_0, main_v10, main_v11, main_v12, main_v13, main_v14, main_cst, main_v15, main_v16, main_v17, main_cst_1, main_v18, main_cst_2, main_v19, main_v20, main_v21, main_cst_3]
theorem writes2 : (hostOps2 : List (HloOp τ sig (Elt F))).Forall fun op => op.writes ⊆ bufsOf wr2 := by
  simp only [hostOps2, List.Forall, nullary_writes, unary_writes, binary_writes, ternary_writes, quaternary_writes, reshape_writes,
    binaryIndexed_writes, Finset.singleton_subset_iff, List.mem_toFinset]
  repeat' apply And.intro
  all_goals exact List.mem_map.mpr ⟨_, by decide, rfl⟩
/-- It keeps every other buffer. -/
theorem keep2 (W : Valuation τ sig (Elt F)) (r : Ref sig .tc) (hr : r ∉ wr2) :
    after hostOps2 W (Proc.devRef .tc r) = W (Proc.devRef .tc r) :=
  after_of_writes_sub _ _ writes2 hr

/-- What this stretch writes: the first layer's count clamped below by one. -/
abbrev wr2a : List (Ref sig .tc) := [main_call0_v0, main_call0_v1, main_v22]
theorem writes2a : (hostOps2_1 : List (HloOp τ sig (Elt F))).Forall fun op => op.writes ⊆ bufsOf wr2a := by
  simp only [hostOps2_1, List.Forall, nullary_writes, unary_writes, binary_writes, ternary_writes, quaternary_writes, reshape_writes,
    binaryIndexed_writes, Finset.singleton_subset_iff, List.mem_toFinset]
  repeat' apply And.intro
  all_goals exact List.mem_map.mpr ⟨_, by decide, rfl⟩
/-- It keeps every other buffer. -/
theorem keep2a (W : Valuation τ sig (Elt F)) (r : Ref sig .tc) (hr : r ∉ wr2a) :
    after hostOps2_1 W (Proc.devRef .tc r) = W (Proc.devRef .tc r) :=
  after_of_writes_sub _ _ writes2a hr

/-- What this stretch writes: the first layer's division by the clamped count. -/
abbrev wr2b : List (Ref sig .tc) := [main_v23, main_v24, main_v25]
theorem writes2b : (hostOps2_2 : List (HloOp τ sig (Elt F))).Forall fun op => op.writes ⊆ bufsOf wr2b := by
  simp only [hostOps2_2, List.Forall, nullary_writes, unary_writes, binary_writes, ternary_writes, quaternary_writes, reshape_writes,
    binaryIndexed_writes, Finset.singleton_subset_iff, List.mem_toFinset]
  repeat' apply And.intro
  all_goals exact List.mem_map.mpr ⟨_, by decide, rfl⟩
/-- It keeps every other buffer. -/
theorem keep2b (W : Valuation τ sig (Elt F)) (r : Ref sig .tc) (hr : r ∉ wr2b) :
    after hostOps2_2 W (Proc.devRef .tc r) = W (Proc.devRef .tc r) :=
  after_of_writes_sub _ _ writes2b hr

/-- What this stretch writes: the second layer's bias made a row. -/
abbrev wr3 : List (Ref sig .tc) := [main_v27]
theorem writes3 : (hostOps3 : List (HloOp τ sig (Elt F))).Forall fun op => op.writes ⊆ bufsOf wr3 := by
  simp only [hostOps3, List.Forall, nullary_writes, unary_writes, binary_writes, ternary_writes, quaternary_writes, reshape_writes,
    binaryIndexed_writes, Finset.singleton_subset_iff, List.mem_toFinset]
  repeat' apply And.intro
  all_goals exact List.mem_map.mpr ⟨_, by decide, rfl⟩
/-- It keeps every other buffer. -/
theorem keep3 (W : Valuation τ sig (Elt F)) (r : Ref sig .tc) (hr : r ∉ wr3) :
    after hostOps3 W (Proc.devRef .tc r) = W (Proc.devRef .tc r) :=
  after_of_writes_sub _ _ writes3 hr

/-- What this stretch writes: the second layer's gather, its two scatter-adds and their constants. -/
abbrev wr4 : List (Ref sig .tc) := [main_c_4, main_v29, main_v30, main_c_5, main_v31, main_v32, main_v33, main_v34, main_v35, main_cst_6, main_v36, main_v37, main_v38, main_cst_7, main_v39, main_cst_8, main_v40, main_v41, main_v42, main_cst_9]
theorem writes4 : (hostOps4 : List (HloOp τ sig (Elt F))).Forall fun op => op.writes ⊆ bufsOf wr4 := by
  simp only [hostOps4, List.Forall, nullary_writes, unary_writes, binary_writes, ternary_writes, quaternary_writes, reshape_writes,
    binaryIndexed_writes, Finset.singleton_subset_iff, List.mem_toFinset]
  repeat' apply And.intro
  all_goals exact List.mem_map.mpr ⟨_, by decide, rfl⟩
/-- It keeps every other buffer. -/
theorem keep4 (W : Valuation τ sig (Elt F)) (r : Ref sig .tc) (hr : r ∉ wr4) :
    after hostOps4 W (Proc.devRef .tc r) = W (Proc.devRef .tc r) :=
  after_of_writes_sub _ _ writes4 hr

/-- What this stretch writes: the second layer's count clamped below by one. -/
abbrev wr4a : List (Ref sig .tc) := [main_call1_v0, main_call1_v1, main_v43]
theorem writes4a : (hostOps4_1 : List (HloOp τ sig (Elt F))).Forall fun op => op.writes ⊆ bufsOf wr4a := by
  simp only [hostOps4_1, List.Forall, nullary_writes, unary_writes, binary_writes, ternary_writes, quaternary_writes, reshape_writes,
    binaryIndexed_writes, Finset.singleton_subset_iff, List.mem_toFinset]
  repeat' apply And.intro
  all_goals exact List.mem_map.mpr ⟨_, by decide, rfl⟩
/-- It keeps every other buffer. -/
theorem keep4a (W : Valuation τ sig (Elt F)) (r : Ref sig .tc) (hr : r ∉ wr4a) :
    after hostOps4_1 W (Proc.devRef .tc r) = W (Proc.devRef .tc r) :=
  after_of_writes_sub _ _ writes4a hr

/-- What this stretch writes: the second layer's division by the clamped count. -/
abbrev wr4b : List (Ref sig .tc) := [main_v44, main_v45, main_v46]
theorem writes4b : (hostOps4_2 : List (HloOp τ sig (Elt F))).Forall fun op => op.writes ⊆ bufsOf wr4b := by
  simp only [hostOps4_2, List.Forall, nullary_writes, unary_writes, binary_writes, ternary_writes, quaternary_writes, reshape_writes,
    binaryIndexed_writes, Finset.singleton_subset_iff, List.mem_toFinset]
  repeat' apply And.intro
  all_goals exact List.mem_map.mpr ⟨_, by decide, rfl⟩
/-- It keeps every other buffer. -/
theorem keep4b (W : Valuation τ sig (Elt F)) (r : Ref sig .tc) (hr : r ∉ wr4b) :
    after hostOps4_2 W (Proc.devRef .tc r) = W (Proc.devRef .tc r) :=
  after_of_writes_sub _ _ writes4b hr

/-- What this stretch writes: the output bias made a row. -/
abbrev wr5 : List (Ref sig .tc) := [main_v48]
theorem writes5 : (hostOps5 : List (HloOp τ sig (Elt F))).Forall fun op => op.writes ⊆ bufsOf wr5 := by
  simp only [hostOps5, List.Forall, nullary_writes, unary_writes, binary_writes, ternary_writes, quaternary_writes, reshape_writes,
    binaryIndexed_writes, Finset.singleton_subset_iff, List.mem_toFinset]
  repeat' apply And.intro
  all_goals exact List.mem_map.mpr ⟨_, by decide, rfl⟩
/-- It keeps every other buffer. -/
theorem keep5 (W : Valuation τ sig (Elt F)) (r : Ref sig .tc) (hr : r ∉ wr5) :
    after hostOps5 W (Proc.devRef .tc r) = W (Proc.devRef .tc r) :=
  after_of_writes_sub _ _ writes5 hr

variable (m : (ℓ : Loc nD τ sig) → Buf (Elt F) ℓ) (ρ : Dev nD → PrngReg) (c : Dev nD)

/-! ## Walking back to the first boundary -/

/-- Untouched up to the entry of the first graph layer's projections. -/
abbrev Quiet3 (r : Ref sig .tc) : Prop := r ∉ wr1 ∧ ∀ w, Pipeline.arrRef spec0 w ≠ r
theorem back3 (r : Ref sig .tc) (h : Quiet3 r) : W3 m ρ c (Proc.devRef .tc r) = W1 m ρ c (Proc.devRef .tc r) :=
  (keep1 _ r h.1).trans (W2_of_ne m ρ c r h.2)

/-- Untouched up to the exit of those projections. -/
abbrev Quiet4 (r : Ref sig .tc) : Prop := Quiet3 r ∧ ∀ w, Pipeline.arrRef spec1 w ≠ r
theorem back4 (r : Ref sig .tc) (h : Quiet4 r) : W4 m ρ c (Proc.devRef .tc r) = W1 m ρ c (Proc.devRef .tc r) :=
  (W4_of_ne m ρ c r h.2).trans (back3 m ρ c r h.1)

/-- Untouched through the first layer's aggregation. -/
abbrev Quiet7 (r : Ref sig .tc) : Prop := Quiet4 r ∧ r ∉ wr2 ∧ r ∉ wr2a ∧ r ∉ wr2b
theorem back7 (r : Ref sig .tc) (h : Quiet7 r) : W7 m ρ c (Proc.devRef .tc r) = W1 m ρ c (Proc.devRef .tc r) :=
  (keep2b _ r h.2.2.2).trans ((keep2a _ r h.2.2.1).trans ((keep2 _ r h.2.1).trans (back4 m ρ c r h.1)))

/-- Untouched up to the entry of the second graph layer's projections. -/
abbrev Quiet9 (r : Ref sig .tc) : Prop := Quiet7 r ∧ (∀ w, Pipeline.arrRef spec2 w ≠ r) ∧ r ∉ wr3
theorem back9 (r : Ref sig .tc) (h : Quiet9 r) : W9 m ρ c (Proc.devRef .tc r) = W1 m ρ c (Proc.devRef .tc r) :=
  (keep3 _ r h.2.2).trans ((W8_of_ne m ρ c r h.2.1).trans (back7 m ρ c r h.1))

/-- Untouched up to the exit of those projections. -/
abbrev Quiet10 (r : Ref sig .tc) : Prop := Quiet9 r ∧ ∀ w, Pipeline.arrRef spec3 w ≠ r
theorem back10 (r : Ref sig .tc) (h : Quiet10 r) : W10 m ρ c (Proc.devRef .tc r) = W1 m ρ c (Proc.devRef .tc r) :=
  (W10_of_ne m ρ c r h.2).trans (back9 m ρ c r h.1)

/-- Untouched up to the entry of the output projection. -/
abbrev Quiet15 (r : Ref sig .tc) : Prop :=
  Quiet10 r ∧ r ∉ wr4 ∧ r ∉ wr4a ∧ r ∉ wr4b ∧ (∀ w, Pipeline.arrRef spec4 w ≠ r) ∧ r ∉ wr5
theorem back15 (r : Ref sig .tc) (h : Quiet15 r) : W15 m ρ c (Proc.devRef .tc r) = W1 m ρ c (Proc.devRef .tc r) :=
  (keep5 _ r h.2.2.2.2.2).trans ((W14_of_ne m ρ c r h.2.2.2.2.1).trans ((keep4b _ r h.2.2.2.1).trans
    ((keep4a _ r h.2.2.1).trans ((keep4 _ r h.2.1).trans (back10 m ρ c r h.1)))))

/-- An argument the first stretch does not write holds its launch contents at the first boundary. -/
theorem at1_arg (r : Ref sig .tc) (h : r ∉ wr0) : W1 m ρ c (Proc.devRef .tc r) = m ((c.tc : Thread nD τ).loc r) :=
  keep0 _ r h

end Cert.Gnn.Keeps

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibLinearLayer.lean ====
/-
  A linear layer read at an index, at the ideal values.

  For a matrix x (m rows, k columns), a weight matrix W (k rows, n columns) and a bias row β, the layer's value at row a
  and column q is (∑ c, x(a, c) · W(c, q)) + β(q). Two spellings of it are read here and shown to be this one function:
  the product of the two matrices rounded to a narrower format (which, at the ideal values, changes nothing) into a
  zero accumulator, plus the bias row broadcast over the rows; and the host's product of the two matrices plus the bias
  vector broadcast twice, first to one row and then over the rows. A block of consecutive rows of the layer's value is
  the layer applied to the same rows of x.
-/
import Idealize.ShloMosaic.PureOps.Ideal.Laws
import Idealize.ShloMosaic.Lib.ValueIdx
import Idealize.ShloMosaic.Lib.ValueLayout
import Idealize.ShloMosaic.Lib.StackMember
import proofs.«134579_j37769942401472_1_alg».proof.Proof.LibMatmulPlain

noncomputable section

namespace Cert.LibLinearLayer

open Idealize.ShloMosaic Idealize.ShloMosaic.ValueIdx

variable {m k n : Nat}

/-- The linear layer: at row a and column q, the sum over c of x(a, c) · W(c, q), plus the bias at column q. -/
def lin (x : FVec Ideal ⟨2, ![m, k]⟩ .f32) (W : FVec Ideal ⟨2, ![k, n]⟩ .f32) (β : Fin n → EReal) :
    FVec Ideal ⟨2, ![m, n]⟩ .f32 :=
  fun i => (∑ c : Fin k, x (ix2 (show Fin m from i 0) c) * W (ix2 c (show Fin n from i 1))) + β (show Fin n from i 1)

theorem lin_apply (x : FVec Ideal ⟨2, ![m, k]⟩ .f32) (W : FVec Ideal ⟨2, ![k, n]⟩ .f32) (β : Fin n → EReal)
    (a : Fin m) (q : Fin n) :
    lin x W β (ix2 a q) = (∑ c : Fin k, x (ix2 a c) * W (ix2 c q)) + β q := rfl

/-- The kernel's spelling: both operands rounded to bf16 (the identity at the ideal values), multiplied into a zero
    accumulator, and the one bias row broadcast over the rows and added. -/
theorem body_eq_lin (D : DotDims ⟨2, ![m, k]⟩ ⟨2, ![k, n]⟩ ⟨2, ![m, n]⟩) (hD : D = DotDims.plain m k n)
    (hbits : FTy.bits .bf16 < FTy.bits .f32)
    (hb : (⟨2, ![1, n]⟩ : Shape).Broadcasts ⟨2, ![m, n]⟩)
    (A : FVec Ideal ⟨2, ![m, k]⟩ .f32) (B : FVec Ideal ⟨2, ![k, n]⟩ .f32) (bias : FVec Ideal ⟨2, ![1, n]⟩ .f32) :
    addf (matmul D none (truncf .bf16 A hbits) (truncf .bf16 B hbits) (constant (F := Ideal) ⟨2, ![m, n]⟩ .f32 0x00000000#32))
        (broadcastTo ⟨2, ![m, n]⟩ bias hb)
      = lin A B (fun q => bias (ix2 (0 : Fin 1) q)) := by
  subst hD
  funext j
  obtain ⟨a, q, rfl⟩ : ∃ (a : Fin m) (q : Fin n), j = ix2 a q := ⟨j 0, j 1, eq_ix2 j⟩
  rw [lin_apply, addf_apply, Cert.LibMatmulPlain.matmul_plain_zero_apply, broadcastTo_1b_ab_apply]
  rfl

/-- The host's spelling: the product of the two matrices, plus the bias vector made a row and then broadcast over the
    rows. -/
theorem host_eq_lin (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1])
    (h2 : (⟨2, ![1, n]⟩ : Shape).BroadcastsInDim ⟨2, ![m, n]⟩ ![0, 1])
    (x : FVec Ideal ⟨2, ![m, k]⟩ .f32) (W : FVec Ideal ⟨2, ![k, n]⟩ .f32) (b : FVec Ideal ⟨1, ![n]⟩ .f32) :
    addf (Host.dotGeneral D none x W)
        (broadcastInDim ⟨2, ![m, n]⟩ ![0, 1] h2 (broadcastInDim ⟨2, ![1, n]⟩ ![1] h1 b))
      = lin x W (fun q => b (ix1 q)) := by
  subst hD
  funext j
  obtain ⟨a, q, rfl⟩ : ∃ (a : Fin m) (q : Fin n), j = ix2 a q := ⟨j 0, j 1, eq_ix2 j⟩
  rw [lin_apply, addf_apply, StackMember.dotGeneral_plain_apply]
  congr 1
  rw [broadcastInDim_apply ![0, 1] h2 _ (ix2 a q) (ix2 (0 : Fin 1) q) (fun ax => by
    match ax with
    | ⟨0, _⟩ => show (0 : Nat) = if (1 : Nat) = 1 then 0 else a.val; rw [if_pos rfl]
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

/-- Rows T·r … T·r + r − 1 of the layer's value are the layer applied to the same rows of x: if a block xb of r rows
    holds those rows of x, the layer of the block at (a, q) is the layer of x at (T·r + a, q). -/
theorem lin_rows {M r : Nat} (X : FVec Ideal ⟨2, ![M, k]⟩ .f32) (xb : FVec Ideal ⟨2, ![r, k]⟩ .f32)
    (W : FVec Ideal ⟨2, ![k, n]⟩ .f32) (β : Fin n → EReal) (a : Fin r) (A : Fin M) (q : Fin n)
    (hx : ∀ c : Fin k, xb (ix2 a c) = X (ix2 A c)) :
    lin xb W β (ix2 a q) = lin X W β (ix2 A q) := by
  rw [lin_apply, lin_apply]
  congr 1
  exact Finset.sum_congr rfl fun c _ => by rw [hx c]

end Cert.LibLinearLayer

end
-- ==== Proof.LibDenseProduct.lean ====
/-
  The dense product as one function of its two matrices, and the two spellings of it the programs use.

  For an m×k matrix A and a k×n matrix B, mm A B has at row a and column b the entry ∑ c, A(a, c) · B(c, b), over the
  extended reals. The host's plain dot_general of A and B is this array, and so is the kernel's matrix unit applied
  to A and B with the zero accumulator; the number format of either operand plays no part at the ideal values. A block of
  rows of mm A B is mm of the same rows of A with B: row a of the product reads row a of A only.
-/
import proofs.«134579_j37769942401472_1_alg».proof.Proof.LibMatmulPlain

noncomputable section

namespace Cert.LibDenseProduct

open Idealize.ShloMosaic Idealize.ShloMosaic.ValueIdx

variable {m k n : Nat} {φ₁ φ₂ : FTy}

/-- The product of an m×k and a k×n matrix, entry by entry. -/
def mm (A : FVec Ideal ⟨2, ![m, k]⟩ φ₁) (B : FVec Ideal ⟨2, ![k, n]⟩ φ₂) : FVec Ideal ⟨2, ![m, n]⟩ .f32 :=
  fun i => ∑ c : Fin k, A (ix2 (i 0) c) * B (ix2 c (i 1))

theorem mm_apply (A : FVec Ideal ⟨2, ![m, k]⟩ φ₁) (B : FVec Ideal ⟨2, ![k, n]⟩ φ₂) (a : Fin m) (b : Fin n) :
    mm A B (ix2 a b) = ∑ c : Fin k, A (ix2 a c) * B (ix2 c b) := rfl

/-- The host's plain product is `mm`. -/
theorem dotGeneral_plain_eq (prec : Option ContractPrecision) (A : FVec Ideal ⟨2, ![m, k]⟩ φ₁) (B : FVec Ideal ⟨2, ![k, n]⟩ φ₂) :
    Host.dotGeneral (DotDims.plain m k n) prec A B = mm A B := by
  funext i
  rw [eq_ix2 i]
  exact StackMember.dotGeneral_plain_apply prec A B _ _

/-- The matrix unit's plain product into the zero accumulator is `mm`. -/
theorem matmul_plain_zero_eq (prec : Option ContractPrecision) (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  rw [eq_ix2 i]
  exact Cert.LibMatmulPlain.matmul_plain_zero_apply prec A B _ _

/-- Rows of a product: if a small left factor `x0` holds, in its row `j 0`, row `i 0` of the large one `X`, then the small
    product at `j` is the large product at `i` whenever the two indices name the same column. -/
theorem mm_rows {M : Nat} (X : FVec Ideal ⟨2, ![M, k]⟩ φ₁) (W : FVec Ideal ⟨2, ![k, n]⟩ φ₂)
    (x0 : FVec Ideal ⟨2, ![m, k]⟩ φ₁) (j : (⟨2, ![m, n]⟩ : Shape).Idx) (i : (⟨2, ![M, n]⟩ : Shape).Idx)
    (hx : ∀ c : Fin k, x0 (ix2 (j 0) c) = X (ix2 (i 0) c)) (h1 : (j 1 : Fin n) = i 1) : mm x0 W j = mm X W i := by
  unfold mm
  refine Finset.sum_congr rfl fun c _ => ?_
  rw [hx c]
  exact congrArg (fun b : Fin n => X (ix2 (i 0) c) * W (ix2 c b)) h1

end Cert.LibDenseProduct

end
-- ==== Proof.KernelBodies.lean ====
/-
  The six kernel bodies as functions of the blocks they load, at the ideal values.

  Each body stores one whole block per output window, and what it stores is one of three functions of the loaded
  blocks: a linear layer x·W + β (the embedding, the root projection of a graph layer, the output projection), a plain
  product x·W (the message projection of a graph layer), or max(a + r, 0) entry by entry (aggregate plus root, then
  relu). Rounding an operand to a narrower format changes nothing at the ideal values, a shape cast to the same shape
  is the identity, and a product into the zero accumulator is the plain sum over the contracted coordinate.
-/
import proofs.«134579_j37769942401472_1_alg».proof.Proof.Gen.KernelIdeal.Skeleton
import proofs.«134579_j37769942401472_1_alg».proof.Proof.LibLinearLayer
import proofs.«134579_j37769942401472_1_alg».proof.Proof.LibDenseProduct
import Idealize.ShloMosaic.Lib.Pipeline.Value
import Idealize.ShloMosaic.Lib.ValueIdx

noncomputable section

namespace Cert.Gnn

open Idealize.ShloMosaic Idealize.ShloMosaic.ValueIdx
open Cert.KernelIdeal Cert.KernelIdeal.Gen
open Cert.LibLinearLayer Cert.LibDenseProduct

/-- The one row of a [1, n] array, as a function of the lane. -/
def biasRow {n : Nat} (b : FVec Ideal ⟨2, ![1, n]⟩ .f32) : Fin n → EReal := fun q => b (ix2 (0 : Fin 1) q)

/-- max(a + r, 0), entry by entry. -/
def reluAdd {s : Shape} (a r : FVec Ideal s .f32) : FVec Ideal s .f32 :=
  fun i => max (a i + r i) (Ideal.ofBits .f32 0x00000000#32)

/-- max(a + r, 0) at an index depends on the two arrays at that index only. -/
theorem reluAdd_congr {s s' : Shape} (a r : FVec Ideal s .f32) (a' r' : FVec Ideal s' .f32) (i : s.Idx) (i' : s'.Idx)
    (ha : a i = a' i') (hr : r i = r' i') : reluAdd a r i = reluAdd a' r' i' := by
  unfold reluAdd
  rw [ha, hr]

/-- An entry of a product depends on one row of the left factor and one column of the right: if a small left factor's row
    `j 0` is the large one's row `i 0`, and the two right factors agree on the columns `j 1` and `i 1`, the entries agree. -/
theorem mm_at {m M k n : Nat} (x0 : FVec Ideal ⟨2, ![m, k]⟩ .f32) (W' : FVec Ideal ⟨2, ![k, n]⟩ .f32)
    (X : FVec Ideal ⟨2, ![M, k]⟩ .f32) (W : FVec Ideal ⟨2, ![k, n]⟩ .f32)
    (j : (⟨2, ![m, n]⟩ : Shape).Idx) (i : (⟨2, ![M, n]⟩ : Shape).Idx)
    (hx : ∀ c : Fin k, x0 (ix2 (j 0) c) = X (ix2 (i 0) c)) (hw : ∀ c : Fin k, W' (ix2 c (j 1)) = W (ix2 c (i 1))) :
    mm x0 W' j = mm X W i := by
  unfold mm
  exact Finset.sum_congr rfl fun c _ => by rw [hx c, hw c]

/-- The same for a linear layer, the bias read at the column. -/
theorem lin_at {m M k n : Nat} (x0 : FVec Ideal ⟨2, ![m, k]⟩ .f32) (W' : FVec Ideal ⟨2, ![k, n]⟩ .f32) (β' : Fin n → EReal)
    (X : FVec Ideal ⟨2, ![M, k]⟩ .f32) (W : FVec Ideal ⟨2, ![k, n]⟩ .f32) (β : Fin n → EReal)
    (j : (⟨2, ![m, n]⟩ : Shape).Idx) (i : (⟨2, ![M, n]⟩ : Shape).Idx)
    (hx : ∀ c : Fin k, x0 (ix2 (j 0) c) = X (ix2 (i 0) c)) (hw : ∀ c : Fin k, W' (ix2 c (j 1)) = W (ix2 c (i 1)))
    (hb : β' (j 1) = β (i 1)) :
    lin x0 W' β' j = lin X W β i := by
  obtain ⟨a, q, rfl⟩ : ∃ (a : Fin m) (q : Fin n), j = ix2 a q := ⟨j 0, j 1, eq_ix2 j⟩
  obtain ⟨A, q', rfl⟩ : ∃ (A : Fin M) (q' : Fin n), i = ix2 A q' := ⟨i 0, i 1, eq_ix2 i⟩
  have hb' : β' q = β q' := hb
  rw [lin_apply, lin_apply, hb']
  congr 1
  exact Finset.sum_congr rfl fun c _ => by
    have h1 : x0 (ix2 a c) = X (ix2 A c) := hx c
    have h2 : W' (ix2 c q) = W (ix2 c q') := hw c
    rw [h1, h2]

/-- The embedding body: x·W + β on a block of 10000 rows. -/
theorem embed_body (x0 : Vec Ideal S10000x32 .f32) (x1 : Vec Ideal S32x64 .f32) (x2 : Vec Ideal S1x64 .f32) :
    k0_pay1 x0 x1 x2 = lin x0 x1 (biasRow x2) := by
  unfold k0_pay1
  dsimp only
  rw [shapeCast_self]
  exact body_eq_lin _ rfl _ _ x0 x1 x2

/-- The message projection of the first graph layer: x·W on a block of rows. -/
theorem msg1_body (x0 : Vec Ideal S10000x64 .f32) (x1 : Vec Ideal S64x64 .f32) :
    k1_pay2 x0 x1 = mm (φ₁ := .f32) (φ₂ := .f32) x0 x1 := by
  unfold k1_pay2 k1_pay1
  dsimp only
  rw [shapeCast_self]
  exact matmul_plain_zero_eq none (truncf .bf16 x0 bitsLt_bf16_f32) (truncf .bf16 x1 bitsLt_bf16_f32)

/-- The root projection of the first graph layer: x·W + β on a block of rows. -/
theorem root1_body (x0 : Vec Ideal S10000x64 .f32) (x2 : Vec Ideal S64x64 .f32) (x3 : Vec Ideal S1x64 .f32) :
    k1_pay3 x0 x2 x3 = lin x0 x2 (biasRow x3) := by
  unfold k1_pay3 k1_pay1
  dsimp only
  rw [shapeCast_self, shapeCast_self]
  exact body_eq_lin _ rfl _ _ x0 x2 x3

/-- Aggregate plus root, then relu, of the first graph layer. -/
theorem combine1_body (x0 x1 : Vec Ideal S10000x64 .f32) : k2_pay1 x0 x1 = reluAdd x0 x1 := by
  unfold k2_pay1
  dsimp only
  rw [shapeCast_self, shapeCast_self]
  rfl

/-- The message projection of the second graph layer. -/
theorem msg2_body (x0 : Vec Ideal S10000x64 .f32) (x1 : Vec Ideal S64x64 .f32) :
    k3_pay2 x0 x1 = mm (φ₁ := .f32) (φ₂ := .f32) x0 x1 := by
  unfold k3_pay2 k3_pay1
  dsimp only
  rw [shapeCast_self]
  exact matmul_plain_zero_eq none (truncf .bf16 x0 bitsLt_bf16_f32) (truncf .bf16 x1 bitsLt_bf16_f32)

/-- The root projection of the second graph layer. -/
theorem root2_body (x0 : Vec Ideal S10000x64 .f32) (x2 : Vec Ideal S64x64 .f32) (x3 : Vec Ideal S1x64 .f32) :
    k3_pay3 x0 x2 x3 = lin x0 x2 (biasRow x3) := by
  unfold k3_pay3 k3_pay1
  dsimp only
  rw [shapeCast_self, shapeCast_self]
  exact body_eq_lin _ rfl _ _ x0 x2 x3

/-- Aggregate plus root, then relu, of the second graph layer. -/
theorem combine2_body (x0 x1 : Vec Ideal S10000x64 .f32) : k4_pay1 x0 x1 = reluAdd x0 x1 := by
  unfold k4_pay1
  dsimp only
  rw [shapeCast_self, shapeCast_self]
  rfl

/-- The output projection: x·W + β on a block of rows. -/
theorem out_body (x0 : Vec Ideal S10000x64 .f32) (x1 : Vec Ideal S64x128 .f32) (x2 : Vec Ideal S1x128 .f32) :
    k5_pay1 x0 x1 x2 = lin x0 x1 (biasRow x2) := by
  unfold k5_pay1
  dsimp only
  rw [shapeCast_self, shapeCast_self]
  exact body_eq_lin _ rfl _ _ x0 x1 x2

end Cert.Gnn

end
-- ==== Proof.Embed.lean ====
/-
  The embedding step on the whole node array.

  The step runs over ten blocks of 10000 consecutive rows of its input x. At each block it multiplies the block's rows by
  the weights and adds the bias row, and writes the result back to the same rows of its output. The weights and the bias
  are read whole at every block. An entry (p, q) of the output depends on row p of x only, and the ten blocks tile the
  100000 rows: the output is the linear layer x·W + b as a whole array.
-/
import proofs.«134579_j37769942401472_1_alg».proof.Proof.Gen.KernelIdeal.Frame
import proofs.«134579_j37769942401472_1_alg».proof.Proof.KernelBodies

set_option maxRecDepth 16384

noncomputable section

namespace Cert.Gnn.Embed

open Idealize.ShloMosaic Idealize.ShloMosaic.TcCoe Idealize.ShloMosaic.ValueIdx Idealize.SL.Sem
open Cert.KernelIdeal Cert.KernelIdeal.Gen
open Cert.LibLinearLayer Cert.LibDenseProduct
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- How the four windows are cut: the input and the output sit at the same block of rows at every grid point, and the
    weights and the bias always at their one block. -/
theorem cuts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every block of rows is some grid point's. -/
theorem every_block : ∀ q0 : Fin 10, ∃ t : Fin cfg0.N, win0_3.index t = ![q0.val, 0] :=
  (by decide +kernel : ∀ q0 : Fin 10, ∃ t : Fin grid0.N, win0_3.index t = ![q0.val, 0])

/-- What a grid point writes back is its block of x·W + b. -/
theorem written (c : Dev nD) (t : Fin cfg0.N) :
    (dat0 V c).flushed 3 t
      = ((cfg0.win 3).blk t).view.read (Elt Ideal) (lin (m := 100000) (k := 32) (n := 64) (V c main_arg0) (V c main_arg2) (biasRow (n := 64) (V c main_v4))) := by
  show (cfg0.win 3).cut (grid0.coords t) ((dat0 V c).after 3 t) = _
  rw [after0_3]
  unfold out0_3
  rw [View.canon_unit_zero origin]
  simp only [View.ld_unit_zero (S := S10000x32) origin, View.ld_unit_zero (S := S32x64) origin, View.ld_unit_zero (S := S1x64) origin]
  rw [embed_body]
  obtain ⟨e0, e1, e2, e3, e4, e5, e6⟩ := cuts t
  funext j
  refine lin_at (iblk0 V c 0 t) (iblk0 V c 1 t) (biasRow (iblk0 V c 2 t)) (V c main_arg0) (V c main_arg2) (biasRow (n := 64) (V c main_v4))
    j (((cfg0.win 3).blk t).view.emb j) (fun k => ?_) (fun k => ?_) ?_
  · show V c main_arg0 (((cfg0.win 0).blk t).view.emb (ix2 (j 0) k)) = V c main_arg0 (ix2 ((((cfg0.win 3).blk t).view.emb j) 0) k)
    refine congrArg _ ?_
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 32 + 1 * k.val = k.val; omega
  · show V c main_arg2 (((cfg0.win 1).blk t).view.emb (ix2 k (j 1))) = V c main_arg2 (ix2 k ((((cfg0.win 3).blk t).view.emb j) 1))
    refine congrArg _ ?_
    funext a; apply Fin.ext
    match a with
    | ⟨0, _⟩ => show win0_1.index t (0 : Fin 2) * 32 + 1 * k.val = k.val; omega
    | ⟨1, _⟩ => show win0_1.index t (1 : Fin 2) * 64 + 1 * (j 1).val = win0_3.index t (1 : Fin 2) * 64 + 1 * (j 1).val; omega
  · show V c main_v4 (((cfg0.win 2).blk t).view.emb (ix2 (0 : Fin 1) (j 1))) = V c main_v4 (ix2 (0 : Fin 1) ((((cfg0.win 3).blk t).view.emb j) 1))
    refine congrArg _ ?_
    funext a; apply Fin.ext
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the output is in a grid point's block iff each coordinate is in the block's range on its axis. -/
theorem in_block (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v5).slice (win0_3.rect t)).set ↔ _
  rw [View.set_slice_whole, Rect.mem_set_unit]
  exact Iff.rfl

/-- The output array after the step: x·W + b. -/
theorem result (c : Dev nD) :
    (dat0 V c).arrAt 3 cfg0.N = lin (m := 100000) (k := 32) (n := 64) (V c main_arg0) (V c main_arg2) (biasRow (n := 64) (V c main_v4)) :=
  (dat0 V c).arrAt_eq_of_cover 3 _ (fun t _ => written V c t) fun i => by
    have hi0 : (i 0).val < 100000 := (i 0).isLt
    have hi1 : (i 1).val < 64 := (i 1).isLt
    obtain ⟨t, ht⟩ := every_block ⟨(i 0).val / 10000, by omega⟩
    have q0 : win0_3.index t (0 : Fin 2) = (i 0).val / 10000 := congrFun ht 0
    have q1 : win0_3.index t (1 : Fin 2) = 0 := congrFun ht 1
    refine ⟨t, flush0_3 t, ?_⟩
    rw [in_block]
    intro a
    match a with
    | ⟨0, _⟩ => show win0_3.index t (0 : Fin 2) * 10000 ≤ (i 0).val ∧ (i 0).val < win0_3.index t (0 : Fin 2) * 10000 + 10000; omega
    | ⟨1, _⟩ => show win0_3.index t (1 : Fin 2) * 64 ≤ (i 1).val ∧ (i 1).val < win0_3.index t (1 : Fin 2) * 64 + 64; omega

end Cert.Gnn.Embed

end
-- ==== Proof.Dual1.lean ====
/-
  The two projections of the first graph layer on the whole node array.

  The step runs over ten blocks of 10000 consecutive rows of the node features h. At each block it multiplies the
  block's rows by the message weights, and separately by the root weights and adds the bias row, and writes the two
  results back to the same rows of its two outputs. The weights and the bias are read whole at every block. An entry
  (p, q) of either output depends on row p of h only, and the ten blocks tile the 100000 rows: the message output is the
  product h·W_rel and the root output the linear layer h·W_root + b, as whole arrays.
-/
import proofs.«134579_j37769942401472_1_alg».proof.Proof.Gen.KernelIdeal.Frame
import proofs.«134579_j37769942401472_1_alg».proof.Proof.KernelBodies

set_option maxRecDepth 16384

noncomputable section

namespace Cert.Gnn.Dual1

open Idealize.ShloMosaic Idealize.ShloMosaic.TcCoe Idealize.ShloMosaic.ValueIdx Idealize.SL.Sem
open Cert.KernelIdeal Cert.KernelIdeal.Gen
open Cert.LibLinearLayer Cert.LibDenseProduct
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- How the six windows are cut: the features and the two outputs sit at the same block of rows at every grid point, and
    the weights and the bias always at their one block. -/
theorem cuts : ∀ t : Fin cfg1.N, win1_0.index t (0 : Fin 2) = win1_4.index t (0 : Fin 2)
    ∧ win1_5.index t (0 : Fin 2) = win1_4.index t (0 : Fin 2)
    ∧ win1_0.index t (1 : Fin 2) = 0 ∧ win1_4.index t (1 : Fin 2) = 0 ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Every block of rows is some grid point's, for either output. -/
theorem every_block : ∀ q0 : Fin 10, ∃ t : Fin cfg1.N, win1_4.index t = ![q0.val, 0] ∧ win1_5.index t = ![q0.val, 0] :=
  (by decide +kernel : ∀ q0 : Fin 10, ∃ t : Fin grid1.N, win1_4.index t = ![q0.val, 0] ∧ win1_5.index t = ![q0.val, 0])

/-- What a grid point writes back to the message output is its block of h·W_rel. -/
theorem written_msg (c : Dev nD) (t : Fin cfg1.N) :
    (dat1 V c).flushed 4 t
      = ((cfg1.win 4).blk t).view.read (Elt Ideal) (mm (φ₁ := .f32) (φ₂ := .f32) (m := 100000) (k := 64) (n := 64) (V c main_v5) (V c main_arg4)) := by
  show (cfg1.win 4).cut (grid1.coords t) ((dat1 V c).after 4 t) = _
  rw [after1_4]
  unfold out1_4
  rw [View.canon_unit_zero origin]
  simp only [View.ld_unit_zero (S := S10000x64) origin, View.ld_unit_zero (S := S64x64) origin]
  rw [msg1_body]
  obtain ⟨e0, e1, e2, e3, e4, e5, e6, e7, e8, e9, e10⟩ := cuts t
  funext j
  refine mm_at (iblk1 V c 0 t) (iblk1 V c 1 t) (V c main_v5) (V c main_arg4) j (((cfg1.win 4).blk t).view.emb j) (fun k => ?_) (fun k => ?_)
  · show V c main_v5 (((cfg1.win 0).blk t).view.emb (ix2 (j 0) k)) = V c main_v5 (ix2 ((((cfg1.win 4).blk t).view.emb j) 0) k)
    refine congrArg _ ?_
    funext a; apply Fin.ext
    match a with
    | ⟨0, _⟩ => show win1_0.index t (0 : Fin 2) * 10000 + 1 * (j 0).val = win1_4.index t (0 : Fin 2) * 10000 + 1 * (j 0).val; omega
    | ⟨1, _⟩ => show win1_0.index t (1 : Fin 2) * 64 + 1 * k.val = k.val; omega
  · show V c main_arg4 (((cfg1.win 1).blk t).view.emb (ix2 k (j 1))) = V c main_arg4 (ix2 k ((((cfg1.win 4).blk t).view.emb j) 1))
    refine congrArg _ ?_
    funext a; apply Fin.ext
    match a with
    | ⟨0, _⟩ => show win1_1.index t (0 : Fin 2) * 64 + 1 * k.val = k.val; omega
    | ⟨1, _⟩ => show win1_1.index t (1 : Fin 2) * 64 + 1 * (j 1).val = win1_4.index t (1 : Fin 2) * 64 + 1 * (j 1).val; omega

/-- What a grid point writes back to the root output is its block of h·W_root + b. -/
theorem written_root (c : Dev nD) (t : Fin cfg1.N) :
    (dat1 V c).flushed 5 t
      = ((cfg1.win 5).blk t).view.read (Elt Ideal) (lin (m := 100000) (k := 64) (n := 64) (V c main_v5) (V c main_arg5) (biasRow (n := 64) (V c main_v6))) := by
  show (cfg1.win 5).cut (grid1.coords t) ((dat1 V c).after 5 t) = _
  rw [after1_5]
  unfold out1_5
  rw [View.canon_unit_zero origin]
  simp only [View.ld_unit_zero (S := S10000x64) origin, View.ld_unit_zero (S := S64x64) origin, View.ld_unit_zero (S := S1x64) origin]
  rw [root1_body]
  obtain ⟨e0, e1, e2, e3, e4, e5, e6, e7, e8, e9, e10⟩ := cuts t
  funext j
  refine lin_at (iblk1 V c 0 t) (iblk1 V c 2 t) (biasRow (iblk1 V c 3 t)) (V c main_v5) (V c main_arg5) (biasRow (n := 64) (V c main_v6))
    j (((cfg1.win 5).blk t).view.emb j) (fun k => ?_) (fun k => ?_) ?_
  · show V c main_v5 (((cfg1.win 0).blk t).view.emb (ix2 (j 0) k)) = V c main_v5 (ix2 ((((cfg1.win 5).blk t).view.emb j) 0) k)
    refine congrArg _ ?_
    funext a; apply Fin.ext
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 64 + 1 * k.val = k.val; omega
  · show V c main_arg5 (((cfg1.win 2).blk t).view.emb (ix2 k (j 1))) = V c main_arg5 (ix2 k ((((cfg1.win 5).blk t).view.emb j) 1))
    refine congrArg _ ?_
    funext a; apply Fin.ext
    match a with
    | ⟨0, _⟩ => show win1_2.index t (0 : Fin 2) * 64 + 1 * k.val = k.val; omega
    | ⟨1, _⟩ => show win1_2.index t (1 : Fin 2) * 64 + 1 * (j 1).val = win1_5.index t (1 : Fin 2) * 64 + 1 * (j 1).val; omega
  · show V c main_v6 (((cfg1.win 3).blk t).view.emb (ix2 (0 : Fin 1) (j 1))) = V c main_v6 (ix2 (0 : Fin 1) ((((cfg1.win 5).blk t).view.emb j) 1))
    refine congrArg _ ?_
    funext a; apply Fin.ext
    match a with
    | ⟨0, _⟩ => show win1_3.index t (0 : Fin 2) * 1 + 1 * 0 = 0; omega
    | ⟨1, _⟩ => show win1_3.index t (1 : Fin 2) * 64 + 1 * (j 1).val = win1_5.index t (1 : Fin 2) * 64 + 1 * (j 1).val; omega

/-- An index of the message output is in a grid point's block iff each coordinate is in the block's range on its axis. -/
theorem in_block_msg (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v7_0).slice (win1_4.rect t)).set ↔ _
  rw [View.set_slice_whole, Rect.mem_set_unit]
  exact Iff.rfl

/-- The same for the root output. -/
theorem in_block_root (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v7_1).slice (win1_5.rect t)).set ↔ _
  rw [View.set_slice_whole, Rect.mem_set_unit]
  exact Iff.rfl

/-- The message output after the step: h·W_rel. -/
theorem result_msg (c : Dev nD) :
    (dat1 V c).arrAt 4 cfg1.N = mm (φ₁ := .f32) (φ₂ := .f32) (m := 100000) (k := 64) (n := 64) (V c main_v5) (V c main_arg4) :=
  (dat1 V c).arrAt_eq_of_cover 4 _ (fun t _ => written_msg V c t) fun i => by
    have hi0 : (i 0).val < 100000 := (i 0).isLt
    have hi1 : (i 1).val < 64 := (i 1).isLt
    obtain ⟨t, ht, -⟩ := every_block ⟨(i 0).val / 10000, by omega⟩
    have q0 : win1_4.index t (0 : Fin 2) = (i 0).val / 10000 := congrFun ht 0
    have q1 : win1_4.index t (1 : Fin 2) = 0 := congrFun ht 1
    refine ⟨t, flush1_4 t, ?_⟩
    rw [in_block_msg]
    intro a
    match a with
    | ⟨0, _⟩ => show win1_4.index t (0 : Fin 2) * 10000 ≤ (i 0).val ∧ (i 0).val < win1_4.index t (0 : Fin 2) * 10000 + 10000; omega
    | ⟨1, _⟩ => show win1_4.index t (1 : Fin 2) * 64 ≤ (i 1).val ∧ (i 1).val < win1_4.index t (1 : Fin 2) * 64 + 64; omega

/-- The root output after the step: h·W_root + b. -/
theorem result_root (c : Dev nD) :
    (dat1 V c).arrAt 5 cfg1.N = lin (m := 100000) (k := 64) (n := 64) (V c main_v5) (V c main_arg5) (biasRow (n := 64) (V c main_v6)) :=
  (dat1 V c).arrAt_eq_of_cover 5 _ (fun t _ => written_root V c t) fun i => by
    have hi0 : (i 0).val < 100000 := (i 0).isLt
    have hi1 : (i 1).val < 64 := (i 1).isLt
    obtain ⟨t, -, ht⟩ := every_block ⟨(i 0).val / 10000, by omega⟩
    have q0 : win1_5.index t (0 : Fin 2) = (i 0).val / 10000 := congrFun ht 0
    have q1 : win1_5.index t (1 : Fin 2) = 0 := congrFun ht 1
    refine ⟨t, flush1_5 t, ?_⟩
    rw [in_block_root]
    intro a
    match a with
    | ⟨0, _⟩ => show win1_5.index t (0 : Fin 2) * 10000 ≤ (i 0).val ∧ (i 0).val < win1_5.index t (0 : Fin 2) * 10000 + 10000; omega
    | ⟨1, _⟩ => show win1_5.index t (1 : Fin 2) * 64 ≤ (i 1).val ∧ (i 1).val < win1_5.index t (1 : Fin 2) * 64 + 64; omega

end Cert.Gnn.Dual1

end
-- ==== Proof.Combine1.lean ====
/-
  The first combine step on the whole node array.

  The step runs over ten blocks of 10000 consecutive rows. At each block it adds the aggregate's rows to the root
  projection's rows and takes the maximum with zero, entry by entry, and writes the block back to the same rows of the
  result. All three arrays are cut the same way, so entry (p, q) of the result depends on entry (p, q) of the two inputs
  only, and the ten blocks tile the 100000 rows: the result array is max(a + r, 0) entry by entry.
-/
import proofs.«134579_j37769942401472_1_alg».proof.Proof.Gen.KernelIdeal.Frame
import proofs.«134579_j37769942401472_1_alg».proof.Proof.KernelBodies

set_option maxRecDepth 16384

noncomputable section

namespace Cert.Gnn.Combine1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The three windows are cut alike: at every grid point they sit at the same block of rows. -/
theorem same_cut : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2) :=
  (by decide +kernel : ∀ t : Fin grid2.N, _)

/-- Every block of rows is some grid point's. -/
theorem every_block : ∀ q0 : Fin 10, ∃ t : Fin cfg2.N, win2_2.index t = ![q0.val, 0] :=
  (by decide +kernel : ∀ q0 : Fin 10, ∃ t : Fin grid2.N, win2_2.index t = ![q0.val, 0])

/-- What a grid point writes back is its block of max(a + r, 0) of the two input arrays as the step finds them. -/
theorem written (c : Dev nD) (t : Fin cfg2.N) :
    (dat2 V c).flushed 2 t
      = ((cfg2.win 2).blk t).view.read (Elt Ideal) (reluAdd (s := S100000x64) (V c main_v25) (V c main_v7_1)) := by
  show (cfg2.win 2).cut (grid2.coords t) ((dat2 V c).after 2 t) = _
  rw [after2_2]
  unfold out2_2
  rw [View.canon_unit_zero origin]
  simp only [View.ld_unit_zero (S := S10000x64) origin]
  rw [combine1_body]
  obtain ⟨e0, e1, e2, e3⟩ := same_cut t
  funext j
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 64 + 1 * (j 1).val = win2_2.index t (1 : Fin 2) * 64 + 1 * (j 1).val; omega
  refine reluAdd_congr (iblk2 V c 0 t) (iblk2 V c 1 t) (V c main_v25) (V c main_v7_1) j (((cfg2.win 2).blk t).view.emb j) ?_ ?_
  · show V c main_v25 (((cfg2.win 0).blk t).view.emb j) = V c main_v25 (((cfg2.win 2).blk t).view.emb j)
    rw [h0]
  · show V c main_v7_1 (((cfg2.win 1).blk t).view.emb j) = V c main_v7_1 (((cfg2.win 2).blk t).view.emb j)
    rw [h1]

/-- An index of the result is in a grid point's block iff each coordinate is in the block's range on its axis. -/
theorem in_block (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v26).slice (win2_2.rect t)).set ↔ _
  rw [View.set_slice_whole, Rect.mem_set_unit]
  exact Iff.rfl

/-- The result array after the step: max(a + r, 0) of the two input arrays, entry by entry. -/
theorem result (c : Dev nD) :
    (dat2 V c).arrAt 2 cfg2.N = reluAdd (s := S100000x64) (V c main_v25) (V c main_v7_1) :=
  (dat2 V c).arrAt_eq_of_cover 2 _ (fun t _ => written V c t) fun i => by
    have hi0 : (i 0).val < 100000 := (i 0).isLt
    have hi1 : (i 1).val < 64 := (i 1).isLt
    obtain ⟨t, ht⟩ := every_block ⟨(i 0).val / 10000, by omega⟩
    have q0 : win2_2.index t (0 : Fin 2) = (i 0).val / 10000 := congrFun ht 0
    have q1 : win2_2.index t (1 : Fin 2) = 0 := congrFun ht 1
    refine ⟨t, flush2_2 t, ?_⟩
    rw [in_block]
    intro a
    match a with
    | ⟨0, _⟩ => show win2_2.index t (0 : Fin 2) * 10000 ≤ (i 0).val ∧ (i 0).val < win2_2.index t (0 : Fin 2) * 10000 + 10000; omega
    | ⟨1, _⟩ => show win2_2.index t (1 : Fin 2) * 64 ≤ (i 1).val ∧ (i 1).val < win2_2.index t (1 : Fin 2) * 64 + 64; omega

end Cert.Gnn.Combine1

end
-- ==== Proof.Dual2.lean ====
/-
  The two projections of the second graph layer on the whole node array.

  The step runs over ten blocks of 10000 consecutive rows of the node features h. At each block it multiplies the
  block's rows by the message weights, and separately by the root weights and adds the bias row, and writes the two
  results back to the same rows of its two outputs. The weights and the bias are read whole at every block. An entry
  (p, q) of either output depends on row p of h only, and the ten blocks tile the 100000 rows: the message output is the
  product h·W_rel and the root output the linear layer h·W_root + b, as whole arrays.
-/
import proofs.«134579_j37769942401472_1_alg».proof.Proof.Gen.KernelIdeal.Frame
import proofs.«134579_j37769942401472_1_alg».proof.Proof.KernelBodies

set_option maxRecDepth 16384

noncomputable section

namespace Cert.Gnn.Dual2

open Idealize.ShloMosaic Idealize.ShloMosaic.TcCoe Idealize.ShloMosaic.ValueIdx Idealize.SL.Sem
open Cert.KernelIdeal Cert.KernelIdeal.Gen
open Cert.LibLinearLayer Cert.LibDenseProduct
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- How the six windows are cut: the features and the two outputs sit at the same block of rows at every grid point, and
    the weights and the bias always at their one block. -/
theorem cuts : ∀ t : Fin cfg3.N, win3_0.index t (0 : Fin 2) = win3_4.index t (0 : Fin 2)
    ∧ win3_5.index t (0 : Fin 2) = win3_4.index t (0 : Fin 2)
    ∧ win3_0.index t (1 : Fin 2) = 0 ∧ win3_4.index t (1 : Fin 2) = 0 ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- Every block of rows is some grid point's, for either output. -/
theorem every_block : ∀ q0 : Fin 10, ∃ t : Fin cfg3.N, win3_4.index t = ![q0.val, 0] ∧ win3_5.index t = ![q0.val, 0] :=
  (by decide +kernel : ∀ q0 : Fin 10, ∃ t : Fin grid3.N, win3_4.index t = ![q0.val, 0] ∧ win3_5.index t = ![q0.val, 0])

/-- What a grid point writes back to the message output is its block of h·W_rel. -/
theorem written_msg (c : Dev nD) (t : Fin cfg3.N) :
    (dat3 V c).flushed 4 t
      = ((cfg3.win 4).blk t).view.read (Elt Ideal) (mm (φ₁ := .f32) (φ₂ := .f32) (m := 100000) (k := 64) (n := 64) (V c main_v26) (V c main_arg7)) := by
  show (cfg3.win 4).cut (grid3.coords t) ((dat3 V c).after 4 t) = _
  rw [after3_4]
  unfold out3_4
  rw [View.canon_unit_zero origin]
  simp only [View.ld_unit_zero (S := S10000x64) origin, View.ld_unit_zero (S := S64x64) origin]
  rw [msg2_body]
  obtain ⟨e0, e1, e2, e3, e4, e5, e6, e7, e8, e9, e10⟩ := cuts t
  funext j
  refine mm_at (iblk3 V c 0 t) (iblk3 V c 1 t) (V c main_v26) (V c main_arg7) j (((cfg3.win 4).blk t).view.emb j) (fun k => ?_) (fun k => ?_)
  · show V c main_v26 (((cfg3.win 0).blk t).view.emb (ix2 (j 0) k)) = V c main_v26 (ix2 ((((cfg3.win 4).blk t).view.emb j) 0) k)
    refine congrArg _ ?_
    funext a; apply Fin.ext
    match a with
    | ⟨0, _⟩ => show win3_0.index t (0 : Fin 2) * 10000 + 1 * (j 0).val = win3_4.index t (0 : Fin 2) * 10000 + 1 * (j 0).val; omega
    | ⟨1, _⟩ => show win3_0.index t (1 : Fin 2) * 64 + 1 * k.val = k.val; omega
  · show V c main_arg7 (((cfg3.win 1).blk t).view.emb (ix2 k (j 1))) = V c main_arg7 (ix2 k ((((cfg3.win 4).blk t).view.emb j) 1))
    refine congrArg _ ?_
    funext a; apply Fin.ext
    match a with
    | ⟨0, _⟩ => show win3_1.index t (0 : Fin 2) * 64 + 1 * k.val = k.val; omega
    | ⟨1, _⟩ => show win3_1.index t (1 : Fin 2) * 64 + 1 * (j 1).val = win3_4.index t (1 : Fin 2) * 64 + 1 * (j 1).val; omega

/-- What a grid point writes back to the root output is its block of h·W_root + b. -/
theorem written_root (c : Dev nD) (t : Fin cfg3.N) :
    (dat3 V c).flushed 5 t
      = ((cfg3.win 5).blk t).view.read (Elt Ideal) (lin (m := 100000) (k := 64) (n := 64) (V c main_v26) (V c main_arg8) (biasRow (n := 64) (V c main_v27))) := by
  show (cfg3.win 5).cut (grid3.coords t) ((dat3 V c).after 5 t) = _
  rw [after3_5]
  unfold out3_5
  rw [View.canon_unit_zero origin]
  simp only [View.ld_unit_zero (S := S10000x64) origin, View.ld_unit_zero (S := S64x64) origin, View.ld_unit_zero (S := S1x64) origin]
  rw [root2_body]
  obtain ⟨e0, e1, e2, e3, e4, e5, e6, e7, e8, e9, e10⟩ := cuts t
  funext j
  refine lin_at (iblk3 V c 0 t) (iblk3 V c 2 t) (biasRow (iblk3 V c 3 t)) (V c main_v26) (V c main_arg8) (biasRow (n := 64) (V c main_v27))
    j (((cfg3.win 5).blk t).view.emb j) (fun k => ?_) (fun k => ?_) ?_
  · show V c main_v26 (((cfg3.win 0).blk t).view.emb (ix2 (j 0) k)) = V c main_v26 (ix2 ((((cfg3.win 5).blk t).view.emb j) 0) k)
    refine congrArg _ ?_
    funext a; apply Fin.ext
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 64 + 1 * k.val = k.val; omega
  · show V c main_arg8 (((cfg3.win 2).blk t).view.emb (ix2 k (j 1))) = V c main_arg8 (ix2 k ((((cfg3.win 5).blk t).view.emb j) 1))
    refine congrArg _ ?_
    funext a; apply Fin.ext
    match a with
    | ⟨0, _⟩ => show win3_2.index t (0 : Fin 2) * 64 + 1 * k.val = k.val; omega
    | ⟨1, _⟩ => show win3_2.index t (1 : Fin 2) * 64 + 1 * (j 1).val = win3_5.index t (1 : Fin 2) * 64 + 1 * (j 1).val; omega
  · show V c main_v27 (((cfg3.win 3).blk t).view.emb (ix2 (0 : Fin 1) (j 1))) = V c main_v27 (ix2 (0 : Fin 1) ((((cfg3.win 5).blk t).view.emb j) 1))
    refine congrArg _ ?_
    funext a; apply Fin.ext
    match a with
    | ⟨0, _⟩ => show win3_3.index t (0 : Fin 2) * 1 + 1 * 0 = 0; omega
    | ⟨1, _⟩ => show win3_3.index t (1 : Fin 2) * 64 + 1 * (j 1).val = win3_5.index t (1 : Fin 2) * 64 + 1 * (j 1).val; omega

/-- An index of the message output is in a grid point's block iff each coordinate is in the block's range on its axis. -/
theorem in_block_msg (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v28_0).slice (win3_4.rect t)).set ↔ _
  rw [View.set_slice_whole, Rect.mem_set_unit]
  exact Iff.rfl

/-- The same for the root output. -/
theorem in_block_root (t : Fin cfg3.N) (i : S100000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v28_1).slice (win3_5.rect t)).set ↔ _
  rw [View.set_slice_whole, Rect.mem_set_unit]
  exact Iff.rfl

/-- The message output after the step: h·W_rel. -/
theorem result_msg (c : Dev nD) :
    (dat3 V c).arrAt 4 cfg3.N = mm (φ₁ := .f32) (φ₂ := .f32) (m := 100000) (k := 64) (n := 64) (V c main_v26) (V c main_arg7) :=
  (dat3 V c).arrAt_eq_of_cover 4 _ (fun t _ => written_msg V c t) fun i => by
    have hi0 : (i 0).val < 100000 := (i 0).isLt
    have hi1 : (i 1).val < 64 := (i 1).isLt
    obtain ⟨t, ht, -⟩ := every_block ⟨(i 0).val / 10000, by omega⟩
    have q0 : win3_4.index t (0 : Fin 2) = (i 0).val / 10000 := congrFun ht 0
    have q1 : win3_4.index t (1 : Fin 2) = 0 := congrFun ht 1
    refine ⟨t, flush3_4 t, ?_⟩
    rw [in_block_msg]
    intro a
    match a with
    | ⟨0, _⟩ => show win3_4.index t (0 : Fin 2) * 10000 ≤ (i 0).val ∧ (i 0).val < win3_4.index t (0 : Fin 2) * 10000 + 10000; omega
    | ⟨1, _⟩ => show win3_4.index t (1 : Fin 2) * 64 ≤ (i 1).val ∧ (i 1).val < win3_4.index t (1 : Fin 2) * 64 + 64; omega

/-- The root output after the step: h·W_root + b. -/
theorem result_root (c : Dev nD) :
    (dat3 V c).arrAt 5 cfg3.N = lin (m := 100000) (k := 64) (n := 64) (V c main_v26) (V c main_arg8) (biasRow (n := 64) (V c main_v27)) :=
  (dat3 V c).arrAt_eq_of_cover 5 _ (fun t _ => written_root V c t) fun i => by
    have hi0 : (i 0).val < 100000 := (i 0).isLt
    have hi1 : (i 1).val < 64 := (i 1).isLt
    obtain ⟨t, -, ht⟩ := every_block ⟨(i 0).val / 10000, by omega⟩
    have q0 : win3_5.index t (0 : Fin 2) = (i 0).val / 10000 := congrFun ht 0
    have q1 : win3_5.index t (1 : Fin 2) = 0 := congrFun ht 1
    refine ⟨t, flush3_5 t, ?_⟩
    rw [in_block_root]
    intro a
    match a with
    | ⟨0, _⟩ => show win3_5.index t (0 : Fin 2) * 10000 ≤ (i 0).val ∧ (i 0).val < win3_5.index t (0 : Fin 2) * 10000 + 10000; omega
    | ⟨1, _⟩ => show win3_5.index t (1 : Fin 2) * 64 ≤ (i 1).val ∧ (i 1).val < win3_5.index t (1 : Fin 2) * 64 + 64; omega

end Cert.Gnn.Dual2

end
-- ==== Proof.Combine2.lean ====
/-
  The second combine step on the whole node array.

  The step runs over ten blocks of 10000 consecutive rows. At each block it adds the aggregate's rows to the root
  projection's rows and takes the maximum with zero, entry by entry, and writes the block back to the same rows of the
  result. All three arrays are cut the same way, so entry (p, q) of the result depends on entry (p, q) of the two inputs
  only, and the ten blocks tile the 100000 rows: the result array is max(a + r, 0) entry by entry.
-/
import proofs.«134579_j37769942401472_1_alg».proof.Proof.Gen.KernelIdeal.Frame
import proofs.«134579_j37769942401472_1_alg».proof.Proof.KernelBodies

set_option maxRecDepth 16384

noncomputable section

namespace Cert.Gnn.Combine2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The three windows are cut alike: at every grid point they sit at the same block of rows. -/
theorem same_cut : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2) :=
  (by decide +kernel : ∀ t : Fin grid4.N, _)

/-- Every block of rows is some grid point's. -/
theorem every_block : ∀ q0 : Fin 10, ∃ t : Fin cfg4.N, win4_2.index t = ![q0.val, 0] :=
  (by decide +kernel : ∀ q0 : Fin 10, ∃ t : Fin grid4.N, win4_2.index t = ![q0.val, 0])

/-- What a grid point writes back is its block of max(a + r, 0) of the two input arrays as the step finds them. -/
theorem written (c : Dev nD) (t : Fin cfg4.N) :
    (dat4 V c).flushed 2 t
      = ((cfg4.win 2).blk t).view.read (Elt Ideal) (reluAdd (s := S100000x64) (V c main_v46) (V c main_v28_1)) := by
  show (cfg4.win 2).cut (grid4.coords t) ((dat4 V c).after 2 t) = _
  rw [after4_2]
  unfold out4_2
  rw [View.canon_unit_zero origin]
  simp only [View.ld_unit_zero (S := S10000x64) origin]
  rw [combine2_body]
  obtain ⟨e0, e1, e2, e3⟩ := same_cut t
  funext j
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb j = ((cfg4.win 2).blk t).view.emb j := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 64 + 1 * (j 1).val = win4_2.index t (1 : Fin 2) * 64 + 1 * (j 1).val; omega
  refine reluAdd_congr (iblk4 V c 0 t) (iblk4 V c 1 t) (V c main_v46) (V c main_v28_1) j (((cfg4.win 2).blk t).view.emb j) ?_ ?_
  · show V c main_v46 (((cfg4.win 0).blk t).view.emb j) = V c main_v46 (((cfg4.win 2).blk t).view.emb j)
    rw [h0]
  · show V c main_v28_1 (((cfg4.win 1).blk t).view.emb j) = V c main_v28_1 (((cfg4.win 2).blk t).view.emb j)
    rw [h1]

/-- An index of the result is in a grid point's block iff each coordinate is in the block's range on its axis. -/
theorem in_block (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v47).slice (win4_2.rect t)).set ↔ _
  rw [View.set_slice_whole, Rect.mem_set_unit]
  exact Iff.rfl

/-- The result array after the step: max(a + r, 0) of the two input arrays, entry by entry. -/
theorem result (c : Dev nD) :
    (dat4 V c).arrAt 2 cfg4.N = reluAdd (s := S100000x64) (V c main_v46) (V c main_v28_1) :=
  (dat4 V c).arrAt_eq_of_cover 2 _ (fun t _ => written V c t) fun i => by
    have hi0 : (i 0).val < 100000 := (i 0).isLt
    have hi1 : (i 1).val < 64 := (i 1).isLt
    obtain ⟨t, ht⟩ := every_block ⟨(i 0).val / 10000, by omega⟩
    have q0 : win4_2.index t (0 : Fin 2) = (i 0).val / 10000 := congrFun ht 0
    have q1 : win4_2.index t (1 : Fin 2) = 0 := congrFun ht 1
    refine ⟨t, flush4_2 t, ?_⟩
    rw [in_block]
    intro a
    match a with
    | ⟨0, _⟩ => show win4_2.index t (0 : Fin 2) * 10000 ≤ (i 0).val ∧ (i 0).val < win4_2.index t (0 : Fin 2) * 10000 + 10000; omega
    | ⟨1, _⟩ => show win4_2.index t (1 : Fin 2) * 64 ≤ (i 1).val ∧ (i 1).val < win4_2.index t (1 : Fin 2) * 64 + 64; omega

end Cert.Gnn.Combine2

end
-- ==== Proof.Output.lean ====
/-
  The output projection on the whole node array.

  The step runs over ten blocks of 10000 consecutive rows of its input x. At each block it multiplies the block's rows by
  the weights and adds the bias row, and writes the result back to the same rows of its output. The weights and the bias
  are read whole at every block. An entry (p, q) of the output depends on row p of x only, and the ten blocks tile the
  100000 rows: the output is the linear layer x·W + b as a whole array.
-/
import proofs.«134579_j37769942401472_1_alg».proof.Proof.Gen.KernelIdeal.Frame
import proofs.«134579_j37769942401472_1_alg».proof.Proof.KernelBodies

set_option maxRecDepth 16384

noncomputable section

namespace Cert.Gnn.Output

open Idealize.ShloMosaic Idealize.ShloMosaic.TcCoe Idealize.ShloMosaic.ValueIdx Idealize.SL.Sem
open Cert.KernelIdeal Cert.KernelIdeal.Gen
open Cert.LibLinearLayer Cert.LibDenseProduct
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- How the four windows are cut: the input and the output sit at the same block of rows at every grid point, and the
    weights and the bias always at their one block. -/
theorem cuts : ∀ t : Fin cfg5.N, win5_0.index t (0 : Fin 2) = win5_3.index t (0 : Fin 2)
    ∧ win5_0.index t (1 : Fin 2) = 0 ∧ win5_3.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

/-- Every block of rows is some grid point's. -/
theorem every_block : ∀ q0 : Fin 10, ∃ t : Fin cfg5.N, win5_3.index t = ![q0.val, 0] :=
  (by decide +kernel : ∀ q0 : Fin 10, ∃ t : Fin grid5.N, win5_3.index t = ![q0.val, 0])

/-- What a grid point writes back is its block of x·W + b. -/
theorem written (c : Dev nD) (t : Fin cfg5.N) :
    (dat5 V c).flushed 3 t
      = ((cfg5.win 3).blk t).view.read (Elt Ideal) (lin (m := 100000) (k := 64) (n := 128) (V c main_v47) (V c main_arg10) (biasRow (n := 128) (V c main_v48))) := by
  show (cfg5.win 3).cut (grid5.coords t) ((dat5 V c).after 3 t) = _
  rw [after5_3]
  unfold out5_3
  rw [View.canon_unit_zero origin]
  simp only [View.ld_unit_zero (S := S10000x64) origin, View.ld_unit_zero (S := S64x128) origin, View.ld_unit_zero (S := S1x128) origin]
  rw [out_body]
  obtain ⟨e0, e1, e2, e3, e4, e5, e6⟩ := cuts t
  funext j
  refine lin_at (iblk5 V c 0 t) (iblk5 V c 1 t) (biasRow (iblk5 V c 2 t)) (V c main_v47) (V c main_arg10) (biasRow (n := 128) (V c main_v48))
    j (((cfg5.win 3).blk t).view.emb j) (fun k => ?_) (fun k => ?_) ?_
  · show V c main_v47 (((cfg5.win 0).blk t).view.emb (ix2 (j 0) k)) = V c main_v47 (ix2 ((((cfg5.win 3).blk t).view.emb j) 0) k)
    refine congrArg _ ?_
    funext a; apply Fin.ext
    match a with
    | ⟨0, _⟩ => show win5_0.index t (0 : Fin 2) * 10000 + 1 * (j 0).val = win5_3.index t (0 : Fin 2) * 10000 + 1 * (j 0).val; omega
    | ⟨1, _⟩ => show win5_0.index t (1 : Fin 2) * 64 + 1 * k.val = k.val; omega
  · show V c main_arg10 (((cfg5.win 1).blk t).view.emb (ix2 k (j 1))) = V c main_arg10 (ix2 k ((((cfg5.win 3).blk t).view.emb j) 1))
    refine congrArg _ ?_
    funext a; apply Fin.ext
    match a with
    | ⟨0, _⟩ => show win5_1.index t (0 : Fin 2) * 64 + 1 * k.val = k.val; omega
    | ⟨1, _⟩ => show win5_1.index t (1 : Fin 2) * 128 + 1 * (j 1).val = win5_3.index t (1 : Fin 2) * 128 + 1 * (j 1).val; omega
  · show V c main_v48 (((cfg5.win 2).blk t).view.emb (ix2 (0 : Fin 1) (j 1))) = V c main_v48 (ix2 (0 : Fin 1) ((((cfg5.win 3).blk t).view.emb j) 1))
    refine congrArg _ ?_
    funext a; apply Fin.ext
    match a with
    | ⟨0, _⟩ => show win5_2.index t (0 : Fin 2) * 1 + 1 * 0 = 0; omega
    | ⟨1, _⟩ => show win5_2.index t (1 : Fin 2) * 128 + 1 * (j 1).val = win5_3.index t (1 : Fin 2) * 128 + 1 * (j 1).val; omega

/-- An index of the output is in a grid point's block iff each coordinate is in the block's range on its axis. -/
theorem in_block (t : Fin cfg5.N) (i : S100000x128.Idx) :
    i ∈ ((cfg5.win 3).blk t).view.set ↔ ∀ a : Fin 2, win5_3.index t a * S10000x128.size a ≤ (i a).val
      ∧ (i a).val < win5_3.index t a * S10000x128.size a + S10000x128.size a := by
  show i ∈ ((View.whole main_v49).slice (win5_3.rect t)).set ↔ _
  rw [View.set_slice_whole, Rect.mem_set_unit]
  exact Iff.rfl

/-- The output array after the step: x·W + b. -/
theorem result (c : Dev nD) :
    (dat5 V c).arrAt 3 cfg5.N = lin (m := 100000) (k := 64) (n := 128) (V c main_v47) (V c main_arg10) (biasRow (n := 128) (V c main_v48)) :=
  (dat5 V c).arrAt_eq_of_cover 3 _ (fun t _ => written V c t) fun i => by
    have hi0 : (i 0).val < 100000 := (i 0).isLt
    have hi1 : (i 1).val < 128 := (i 1).isLt
    obtain ⟨t, ht⟩ := every_block ⟨(i 0).val / 10000, by omega⟩
    have q0 : win5_3.index t (0 : Fin 2) = (i 0).val / 10000 := congrFun ht 0
    have q1 : win5_3.index t (1 : Fin 2) = 0 := congrFun ht 1
    refine ⟨t, flush5_3 t, ?_⟩
    rw [in_block]
    intro a
    match a with
    | ⟨0, _⟩ => show win5_3.index t (0 : Fin 2) * 10000 ≤ (i 0).val ∧ (i 0).val < win5_3.index t (0 : Fin 2) * 10000 + 10000; omega
    | ⟨1, _⟩ => show win5_3.index t (1 : Fin 2) * 128 ≤ (i 1).val ∧ (i 1).val < win5_3.index t (1 : Fin 2) * 128 + 128; omega

end Cert.Gnn.Output

end
-- ==== Proof.LibGatherRows.lean ====
/-
  A gather of whole rows, read at an index written by coordinates.

  Taking rows of an [N, C] table at an [R, 1] array of row numbers gives an [R, C] array. Its element (p, q) is the table's
  element (ρ p, q): the row ρ p is the row number stored for p, read as a signed integer and clamped into [0, N − 1]; the lane q
  is kept. The row ρ p depends on the row numbers alone — not on the table, nor on the lane — so taking rows commutes with
  anything done to each row of the table separately.
-/
import Idealize.ShloMosaic.Lib.ValueIdx
import Idealize.ShloMosaic.Lib.Pipeline.Value

namespace Cert.LibGatherRows

open Idealize.ShloMosaic Idealize.ShloMosaic.ValueIdx

variable {α : Type}

/-- The dimension numbers of taking rows: the table's row axis is collapsed and indexed by the one component of each start index,
    its lane axis is the result's second axis, taken whole. Their conditions `wf` are decided on a program's literal shapes. -/
abbrev rowDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Of a table's two axes, the one that is not the collapsed row axis is the lane axis. -/
private theorem kept_lanes :
    (List.finRange 2).filter (fun a : Fin 2 => a ∉ ([0] ++ [] : List (Fin 2))) = [1] := by decide

/-- The row of an `N`-row table that result row `p` reads: the stored row number, signed, clamped into `[0, N − 1]`. -/
def rowOf {N R w : ℕ} (hN : 0 < N) (idx : IVec ⟨2, ![R, 1]⟩ w) (p : Fin R) : Fin N :=
  ⟨min (idx (ix2 p (0 : Fin 1))).toInt.toNat (N - 1), by omega⟩

/-- Rows of an `[N, C]` table taken at an `[R, 1]` array of row numbers: element `(p, q)` is the table's `(rowOf p, q)`. -/
theorem gather_rows_apply {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (rowDims N R C wf) x idx (ix2 p q) = x (ix2 (rowOf hN idx p) q) := by
  unfold Host.gather
  congr 1
  funext a
  refine Fin.ext ?_
  show (rowDims N R C wf).start (ix2 p q) idx a + (rowDims N R C wf).batchCoord (ix2 p q) a
    + (rowDims N R C wf).offCoord (ix2 p q) a = _
  rw [GatherDims.batchCoord_eq_zero _ _ _ List.not_mem_nil]
  match a with
  | ⟨0, _⟩ =>
    show (rowDims N R C wf).start (ix2 p q) idx (0 : Fin 2) + 0 + (rowDims N R C wf).offCoord (ix2 p q) (0 : Fin 2)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 p q) ⟨List.idxOf (0 : Fin 2) (rowDims N R C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N R C wf).start (ix2 p q) idx (1 : Fin 2) + 0 + (rowDims N R C wf).offCoord (ix2 p q) (1 : Fin 2) = q.val
    have hs : (rowDims N R C wf).start (ix2 p q) idx (1 : Fin 2) = 0 := by
      unfold GatherDims.start
      rw [dif_neg (show (1 : Fin 2) ∉ ([0] : List (Fin 2)) by decide)]
    have hkept : (rowDims N R C wf).sKept = [(1 : Fin 2)] := kept_lanes
    have hk : (1 : Fin 2) ∈ (rowDims N R C wf).sKept := by rw [hkept]; exact List.mem_singleton.mpr rfl
    rw [hs]
    unfold GatherDims.offCoord
    rw [dif_pos hk]
    simp only [List.getElem_singleton, Nat.add_zero, Nat.zero_add]
    rfl

end Cert.LibGatherRows
-- ==== Proof.Bridge.lean ====
/-
  The kernel's value and the reference's value are one function of the twelve arguments.

  Both programs compute  out = h₂·W_out + b_out,  h₀ = x·W_emb + b_emb,  and for each of the two graph layers
      h' = max(mean(messages) + h·W_root + b, 0),
  where mean(·) scatters the per-edge message rows onto their destination nodes, adds them up, and divides by the node's
  in-degree clamped below by one. They differ in two places only.

  The messages: the reference takes the source node's row of h for every edge and multiplies the resulting per-edge array
  by W_rel; the kernel multiplies h by W_rel once and then takes the source node's row of the product for every edge. The
  row taken for an edge depends on the edge list alone, and row p of a product is the product of row p, so the two per-edge
  arrays are the same array: entry (e, q) of either is the sum over c of h(src e, c)·W_rel(c, q).

  The grouping of the sum: the reference adds the mean to h·W_root and then the bias; the kernel adds the mean to
  (h·W_root + b). Addition of extended reals is associative, infinite values included, so nothing is assumed finite.

  The mean itself is the same chain of host operations in both programs, applied to equal per-edge arrays; it enters here
  as an arbitrary function and is never opened.
-/
import proofs.«134579_j37769942401472_1_alg».proof.Proof.Gen.ReferenceIdeal.Read
import proofs.«134579_j37769942401472_1_alg».proof.Proof.KernelBodies
import proofs.«134579_j37769942401472_1_alg».proof.Proof.LibGatherRows
import Idealize.ShloMosaic.Lib.ValueLayout

noncomputable section

namespace Cert.Gnn.Bridge

open Idealize.ShloMosaic Idealize.ShloMosaic.ValueIdx
open Cert.ReferenceIdeal Cert.ReferenceIdeal.Read Cert.ReferenceIdeal.Facts₀ Cert.ReferenceIdeal.Facts
open Cert.LibLinearLayer Cert.LibDenseProduct Cert.LibGatherRows

/-- Node features, 64 lanes. -/
abbrev Nodes := FVec Ideal S100000x64 .f32
/-- One 64-lane row per edge. -/
abbrev Edges := FVec Ideal S1600000x64 .f32
/-- One row number per edge. -/
abbrev EdgeRows := (⟨S1600000x1, .i32⟩ : BufTy).Contents (Elt Ideal)

/-- Taking rows commutes with a product on the right: the source rows of h·W are the source rows of h, times W. -/
theorem gather_mm (H : Nodes) (W : FVec Ideal S64x64 .f32) (idx : EdgeRows) :
    Host.gather gather_S100000x64_S1600000x1_S1600000x64_1_0_n_n_0_1_164 (mm (φ₁ := .f32) (φ₂ := .f32) (m := 100000) (k := 64) (n := 64) H W) idx
      = Host.dotGeneral dot_S1600000x64_S64x64_S1600000x64_1_0_0_1_n_n none (Host.gather gather_S100000x64_S1600000x1_S1600000x64_1_0_n_n_0_1_164 H idx) W := by
  have hD : Host.dotGeneral dot_S1600000x64_S64x64_S1600000x64_1_0_0_1_n_n none (Host.gather gather_S100000x64_S1600000x1_S1600000x64_1_0_n_n_0_1_164 H idx) W
      = mm (φ₁ := .f32) (φ₂ := .f32) (m := 1600000) (k := 64) (n := 64) (Host.gather gather_S100000x64_S1600000x1_S1600000x64_1_0_n_n_0_1_164 H idx) W :=
    dotGeneral_plain_eq none _ W
  rw [hD]
  funext i
  obtain ⟨p, q, rfl⟩ : ∃ (p : Fin 1600000) (q : Fin 64), i = ix2 p q := ⟨i 0, i 1, eq_ix2 i⟩
  have hrow : ∀ (X : Nodes) (q' : Fin 64), Host.gather gather_S100000x64_S1600000x1_S1600000x64_1_0_n_n_0_1_164 X idx (ix2 p q')
      = X (ix2 (rowOf (N := 100000) (by decide) idx p) q') :=
    fun X q' => gather_rows_apply (N := 100000) (R := 1600000) (C := 64) (by decide) gather_S100000x64_S1600000x1_S1600000x64_1_0_n_n_0_1_164.wf X idx p q'
  rw [hrow, mm_apply, mm_apply]
  exact Finset.sum_congr rfl fun c _ => by rw [hrow]

/-- One graph layer, in the kernel's arrangement: the projections first, rows taken from the message projection, the
    bias inside the root projection. `mid` is the mean over incoming edges. -/
def layerK (mid : Edges → Nodes) (idx : EdgeRows) (H : Nodes) (Wr Wo : FVec Ideal S64x64 .f32) (brow : FVec Ideal S1x64 .f32) : Nodes :=
  reluAdd (mid (Host.gather gather_S100000x64_S1600000x1_S1600000x64_1_0_n_n_0_1_164 (mm (φ₁ := .f32) (φ₂ := .f32) (m := 100000) (k := 64) (n := 64) H Wr) idx))
    (lin (m := 100000) (k := 64) (n := 64) H Wo (biasRow brow))

/-- The same layer in the reference's arrangement: rows taken first and multiplied per edge, the root projection and the bias
    added one after the other, then the maximum with a zero array. -/
def layerR (mid : Edges → Nodes) (idx : EdgeRows) (H : Nodes) (Wr Wo : FVec Ideal S64x64 .f32) (b : FVec Ideal S64 .f32) : Nodes :=
  maximumf (addf (addf (mid (Host.dotGeneral dot_S1600000x64_S64x64_S1600000x64_1_0_0_1_n_n none (Host.gather gather_S100000x64_S1600000x1_S1600000x64_1_0_n_n_0_1_164 H idx) Wr)) (Host.dotGeneral dot_S100000x64_S64x64_S100000x64_1_0_0_1_n_n none H Wo))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The two arrangements are one function, whatever the mean is. -/
theorem layer_eq (mid : Edges → Nodes) (idx : EdgeRows) (H : Nodes) (Wr Wo : FVec Ideal S64x64 .f32) (b : FVec Ideal S64 .f32)
    (brow : FVec Ideal S1x64 .f32) (hb : ∀ q : Fin 64, brow (ix2 (0 : Fin 1) q) = b (ix1 q)) :
    layerK mid idx H Wr Wo brow = layerR mid idx H Wr Wo b := by
  unfold layerK layerR
  rw [gather_mm]
  have hβ : biasRow brow = fun q => b (ix1 q) := funext hb
  have hl : lin (m := 100000) (k := 64) (n := 64) H Wo (biasRow brow)
      = addf (Host.dotGeneral dot_S100000x64_S64x64_S100000x64_1_0_0_1_n_n none H Wo)
          (broadcastInDim S100000x64 ![0, 1] bcast_S1x64_S100000x64_0_1 (broadcastInDim S1x64 ![1] bcast_S64_S1x64_1 b)) := by
    rw [hβ]; exact (host_eq_lin _ rfl _ _ H Wo b).symm
  rw [hl]
  funext i
  unfold reluAdd
  rw [maximumf_apply, addf_apply, addf_apply, addf_apply, add_assoc]
  rfl

/-! ## The pieces the two programs share, by name

These are stated at any reading of the floats: they are compositions of host operations and never look inside one. -/

section AnyFloats

variable {F : FTy → Type} [FloatOps F]

/-- Rows of a node array taken at per-edge row numbers. -/
abbrev takeRows (H : (⟨S100000x64, .f32⟩ : BufTy).Contents (Elt F)) (idx : (⟨S1600000x1, .i32⟩ : BufTy).Contents (Elt F)) :
    (⟨S1600000x64, .f32⟩ : BufTy).Contents (Elt F) := Host.gather gather_S100000x64_S1600000x1_S1600000x64_1_0_n_n_0_1_164 H idx

/-- The source node of every edge, and the destination node. -/
def srcOf (e : (⟨S2x1600000, .i32⟩ : BufTy).Contents (Elt F)) : (⟨S1600000, .i32⟩ : BufTy).Contents (Elt F) := val_main_v1 (F := F) e
def dstOf (e : (⟨S2x1600000, .i32⟩ : BufTy).Contents (Elt F)) : (⟨S1600000, .i32⟩ : BufTy).Contents (Elt F) := val_main_v3 (F := F) e

/-- The first layer's per-edge row numbers (a negative number counted from the end) and its mean over incoming edges:
    scatter-add onto the destinations, divided by the in-degree clamped below by one. -/
def edgeSrc1 (e : (⟨S2x1600000, .i32⟩ : BufTy).Contents (Elt F)) : (⟨S1600000x1, .i32⟩ : BufTy).Contents (Elt F) := val_main_v13 (F := F) e
def mean1 (e : (⟨S2x1600000, .i32⟩ : BufTy).Contents (Elt F)) (U : (⟨S1600000x64, .f32⟩ : BufTy).Contents (Elt F)) :
    (⟨S100000x64, .f32⟩ : BufTy).Contents (Elt F) :=
  Host.divf (Host.scatterAdd scatter_S100000x64_S1600000x1_S1600000x64_1_0_0_1 (val_main_v16 (F := F)) (val_main_v17 (F := F) e) U) (val_main_v25 (F := F) e)

/-- The same two for the second layer (the program spells them out again). -/
def edgeSrc2 (e : (⟨S2x1600000, .i32⟩ : BufTy).Contents (Elt F)) : (⟨S1600000x1, .i32⟩ : BufTy).Contents (Elt F) := val_main_v38 (F := F) e
def mean2 (e : (⟨S2x1600000, .i32⟩ : BufTy).Contents (Elt F)) (U : (⟨S1600000x64, .f32⟩ : BufTy).Contents (Elt F)) :
    (⟨S100000x64, .f32⟩ : BufTy).Contents (Elt F) :=
  Host.divf (Host.scatterAdd scatter_S100000x64_S1600000x1_S1600000x64_1_0_0_1 (val_main_v41 (F := F)) (val_main_v42 (F := F) e) U) (val_main_v50 (F := F) e)

end AnyFloats

/-- The edge list as given, at the ideal values: two rows of node numbers. -/
abbrev EdgeList := (⟨S2x1600000, .i32⟩ : BufTy).Contents (Elt Ideal)

/-! ## The whole network -/

/-- The kernel's arrangement of the whole network, the four bias rows as [1, n] arrays. -/
def kOut (x : FVec Ideal S100000x32 .f32) (e : EdgeList) (We : FVec Ideal S32x64 .f32) (W1r W1o W2r W2o : FVec Ideal S64x64 .f32)
    (Wout : FVec Ideal S64x128 .f32) (r0 r1 r2 : FVec Ideal S1x64 .f32) (r3 : FVec Ideal S1x128 .f32) : FVec Ideal S100000x128 .f32 :=
  lin (m := 100000) (k := 64) (n := 128)
    (layerK (mean2 e) (edgeSrc2 e)
      (layerK (mean1 e) (edgeSrc1 e) (lin (m := 100000) (k := 32) (n := 64) x We (biasRow r0)) W1r W1o r1) W2r W2o r2)
    Wout (biasRow r3)

/-- It is the reference's result, for bias rows that hold the bias vectors. -/
theorem kOut_eq (x : FVec Ideal S100000x32 .f32) (e : EdgeList) (We : FVec Ideal S32x64 .f32) (be : FVec Ideal S64 .f32)
    (W1r W1o : FVec Ideal S64x64 .f32) (b1 : FVec Ideal S64 .f32) (W2r W2o : FVec Ideal S64x64 .f32) (b2 : FVec Ideal S64 .f32)
    (Wout : FVec Ideal S64x128 .f32) (bout : FVec Ideal S128 .f32)
    (r0 r1 r2 : FVec Ideal S1x64 .f32) (r3 : FVec Ideal S1x128 .f32)
    (h0 : ∀ q : Fin 64, r0 (ix2 (0 : Fin 1) q) = be (ix1 q)) (h1 : ∀ q : Fin 64, r1 (ix2 (0 : Fin 1) q) = b1 (ix1 q))
    (h2 : ∀ q : Fin 64, r2 (ix2 (0 : Fin 1) q) = b2 (ix1 q)) (h3 : ∀ q : Fin 128, r3 (ix2 (0 : Fin 1) q) = bout (ix1 q)) :
    kOut x e We W1r W1o W2r W2o Wout r0 r1 r2 r3 = val_main_v61 (F := Ideal) x e We be W1r W1o b1 W2r W2o b2 Wout bout := by
  unfold kOut
  rw [layer_eq _ _ _ _ _ b2 r2 h2, layer_eq _ _ _ _ _ b1 r1 h1]
  have e0 : lin (m := 100000) (k := 32) (n := 64) x We (biasRow r0) = val_main_v7 (F := Ideal) x We be := by
    rw [show biasRow r0 = fun q => be (ix1 q) from funext h0]
    exact (host_eq_lin _ rfl _ _ x We be).symm
  rw [e0]
  have e1 : layerR (mean1 e) (edgeSrc1 e) (val_main_v7 (F := Ideal) x We be) W1r W1o b1 = val_main_v32 (F := Ideal) x e We be W1r W1o b1 := rfl
  rw [e1]
  have e2 : layerR (mean2 e) (edgeSrc2 e) (val_main_v32 (F := Ideal) x e We be W1r W1o b1) W2r W2o b2
      = val_main_v57 (F := Ideal) x e We be W1r W1o b1 W2r W2o b2 := rfl
  rw [e2, show biasRow r3 = fun q => bout (ix1 q) from funext h3]
  exact (host_eq_lin _ rfl _ _ (val_main_v57 (F := Ideal) x e We be W1r W1o b1 W2r W2o b2) Wout bout).symm

end Cert.Gnn.Bridge

end
-- ==== Proof.KernelInputs.lean ====
/-
  The kernel program's twelve arguments by name, its four bias vectors made rows, the node features it passes from step to
  step, and what the first host stretch leaves: the two rows cut out of the edge list and the embedding bias as a row.
-/
import proofs.«134579_j37769942401472_1_alg».proof.Proof.Gen.KernelIdeal.Frame
import proofs.«134579_j37769942401472_1_alg».proof.Proof.Bridge
import Idealize.ShloMosaic.Lib.StableHlo.Run
import Idealize.ShloMosaic.Lib.ValueLayout

set_option maxRecDepth 16384

noncomputable section

namespace Cert.Gnn.Value

open Idealize.ShloMosaic Idealize.ShloMosaic.TcCoe Idealize.ShloMosaic.ValueIdx Idealize.SL.Sem Idealize.ShloMosaic.StableHlo
open Cert.KernelIdeal Cert.KernelIdeal.Gen
open Cert.LibLinearLayer Cert.LibDenseProduct

variable (m : (ℓ : Loc nD τ sig) → Buf (Elt Ideal) ℓ) (ρ : Dev nD → PrngReg) (c : Dev nD)

/-! ## The arguments, and the values along the way -/

abbrev aX : FVec Ideal S100000x32 .f32 := m ((c.tc : Thread nD τ).loc main_arg0)
abbrev aE : Bridge.EdgeList := m ((c.tc : Thread nD τ).loc main_arg1)
abbrev aWe : FVec Ideal S32x64 .f32 := m ((c.tc : Thread nD τ).loc main_arg2)
abbrev aBe : FVec Ideal S64 .f32 := m ((c.tc : Thread nD τ).loc main_arg3)
abbrev aW1r : FVec Ideal S64x64 .f32 := m ((c.tc : Thread nD τ).loc main_arg4)
abbrev aW1o : FVec Ideal S64x64 .f32 := m ((c.tc : Thread nD τ).loc main_arg5)
abbrev aB1 : FVec Ideal S64 .f32 := m ((c.tc : Thread nD τ).loc main_arg6)
abbrev aW2r : FVec Ideal S64x64 .f32 := m ((c.tc : Thread nD τ).loc main_arg7)
abbrev aW2o : FVec Ideal S64x64 .f32 := m ((c.tc : Thread nD τ).loc main_arg8)
abbrev aB2 : FVec Ideal S64 .f32 := m ((c.tc : Thread nD τ).loc main_arg9)
abbrev aWout : FVec Ideal S64x128 .f32 := m ((c.tc : Thread nD τ).loc main_arg10)
abbrev aBout : FVec Ideal S128 .f32 := m ((c.tc : Thread nD τ).loc main_arg11)

/-- The four bias vectors made rows. -/
def row0 : FVec Ideal S1x64 .f32 := shapeCast S1x64 (aBe m c) shapeCasts_S64_S1x64
def row1 : FVec Ideal S1x64 .f32 := shapeCast S1x64 (aB1 m c) shapeCasts_S64_S1x64
def row2 : FVec Ideal S1x64 .f32 := shapeCast S1x64 (aB2 m c) shapeCasts_S64_S1x64
def row3 : FVec Ideal S1x128 .f32 := shapeCast S1x128 (aBout m c) shapeCasts_S128_S1x128

theorem row0_at (q : Fin 64) : row0 m c (ix2 (0 : Fin 1) q) = aBe m c (ix1 q) := shapeCast_a_1a_apply _ _ 0 q
theorem row1_at (q : Fin 64) : row1 m c (ix2 (0 : Fin 1) q) = aB1 m c (ix1 q) := shapeCast_a_1a_apply _ _ 0 q
theorem row2_at (q : Fin 64) : row2 m c (ix2 (0 : Fin 1) q) = aB2 m c (ix1 q) := shapeCast_a_1a_apply _ _ 0 q
theorem row3_at (q : Fin 128) : row3 m c (ix2 (0 : Fin 1) q) = aBout m c (ix1 q) := shapeCast_a_1a_apply _ _ 0 q

/-- The node features after the embedding, after the first graph layer and after the second. -/
def kH0 : Bridge.Nodes := lin (m := 100000) (k := 32) (n := 64) (aX m c) (aWe m c) (biasRow (row0 m c))
def kH1 : Bridge.Nodes :=
  Bridge.layerK (Bridge.mean1 (aE m c)) (Bridge.edgeSrc1 (aE m c)) (kH0 m c) (aW1r m c) (aW1o m c) (row1 m c)
def kH2 : Bridge.Nodes :=
  Bridge.layerK (Bridge.mean2 (aE m c)) (Bridge.edgeSrc2 (aE m c)) (kH1 m c) (aW2r m c) (aW2o m c) (row2 m c)

/-! ## The first stretch -/

theorem row_at1 : W1 m ρ c (Proc.devRef .tc main_v4) = row0 m c := by
  show after hostOps0 (W0 m ρ c) (Proc.devRef .tc main_v4) = _
  after_results
  rfl
theorem src_at1 : W1 m ρ c (Proc.devRef .tc main_v1) = Bridge.srcOf (aE m c) := by
  show after hostOps0 (W0 m ρ c) (Proc.devRef .tc main_v1) = _
  after_results
  rfl
theorem dst_at1 : W1 m ρ c (Proc.devRef .tc main_v3) = Bridge.dstOf (aE m c) := by
  show after hostOps0 (W0 m ρ c) (Proc.devRef .tc main_v3) = _
  after_results
  rfl

end Cert.Gnn.Value

end
-- ==== Proof.KernelMean.lean ====
/-
  The mean over incoming edges, as the host computes it between a layer's two tiled steps.

  Three host stretches: take the source rows of the message buffer (a negative row number counted from the end), scatter-add
  them onto the destination nodes from a zero array, scatter-add ones the same way for the in-degree, clamp the degree below
  by one, and divide. Started from any buffer contents in which the two edge rows are the edge list's rows, they leave that
  function of whatever the message buffer holds — the same chain of operations the reference applies. The statement is
  about the composition only, so it is made at any reading of the floats.
-/
import proofs.«134579_j37769942401472_1_alg».proof.Proof.Gen.KernelIdeal.Frame
import proofs.«134579_j37769942401472_1_alg».proof.Proof.Bridge
import Idealize.ShloMosaic.Lib.StableHlo.Run

set_option maxRecDepth 16384

noncomputable section

namespace Cert.Gnn.Value

open Idealize.ShloMosaic Idealize.ShloMosaic.TcCoe Idealize.ShloMosaic.ValueIdx Idealize.SL.Sem Idealize.ShloMosaic.StableHlo
open Cert.KernelIdeal Cert.KernelIdeal.Gen
open Cert.LibLinearLayer Cert.LibDenseProduct

variable {F : FTy → Type} [FloatOps F]

/-- The first layer's aggregation, from any contents in which the two edge rows are the edge list's: the three host
    stretches leave the mean over incoming edges of the source rows of whatever the message buffer holds. -/
theorem mean1_step (Wv : Valuation τ sig (Elt F)) (e : (⟨S2x1600000, .i32⟩ : BufTy).Contents (Elt F))
    (hs : Wv (Proc.devRef .tc main_v1) = Bridge.srcOf e) (hd : Wv (Proc.devRef .tc main_v3) = Bridge.dstOf e) :
    after hostOps2_2 (after hostOps2_1 (after hostOps2 Wv)) (Proc.devRef .tc main_v25)
      = Bridge.mean1 e (Bridge.takeRows (Wv (Proc.devRef .tc main_v7_0)) (Bridge.edgeSrc1 e)) := by
  after_results_simp
  rw [hs, hd]
  rfl

/-- The second layer's aggregation, as the first's. -/
theorem mean2_step (Wv : Valuation τ sig (Elt F)) (e : (⟨S2x1600000, .i32⟩ : BufTy).Contents (Elt F))
    (hs : Wv (Proc.devRef .tc main_v1) = Bridge.srcOf e) (hd : Wv (Proc.devRef .tc main_v3) = Bridge.dstOf e) :
    after hostOps4_2 (after hostOps4_1 (after hostOps4 Wv)) (Proc.devRef .tc main_v46)
      = Bridge.mean2 e (Bridge.takeRows (Wv (Proc.devRef .tc main_v28_0)) (Bridge.edgeSrc2 e)) := by
  after_results_simp
  rw [hs, hd]
  rfl

end Cert.Gnn.Value

end
-- ==== Proof.KernelValue.lean ====
/-
  The kernel program's result array as a function of its twelve arguments.

  Reading the run's boundaries in order. The first host stretch cuts the two rows out of the edge list and makes the
  embedding bias a row; the embedding step then leaves h₀ = x·W_emb + b_emb. For each graph layer: a host stretch makes the
  layer's bias a row; the projection step leaves h·W_rel and h·W_root + b; three host stretches take the source rows of
  h·W_rel, scatter-add them onto the destinations and divide by the clamped in-degree; the combine step leaves
  max(mean + root, 0). A last stretch makes the output bias a row and the output step leaves h₂·W_out + b_out. A buffer
  read late — a weight matrix, a bias vector, the two edge rows — still holds what it held at the first boundary, because
  nothing in between writes it.
-/
import proofs.«134579_j37769942401472_1_alg».proof.Proof.KernelKeeps
import proofs.«134579_j37769942401472_1_alg».proof.Proof.Embed
import proofs.«134579_j37769942401472_1_alg».proof.Proof.Dual1
import proofs.«134579_j37769942401472_1_alg».proof.Proof.Combine1
import proofs.«134579_j37769942401472_1_alg».proof.Proof.Dual2
import proofs.«134579_j37769942401472_1_alg».proof.Proof.Combine2
import proofs.«134579_j37769942401472_1_alg».proof.Proof.Output
import proofs.«134579_j37769942401472_1_alg».proof.Proof.Bridge
import proofs.«134579_j37769942401472_1_alg».proof.Proof.KernelInputs
import proofs.«134579_j37769942401472_1_alg».proof.Proof.KernelMean

set_option maxRecDepth 16384

noncomputable section

namespace Cert.Gnn.Value

open Idealize.ShloMosaic Idealize.ShloMosaic.TcCoe Idealize.ShloMosaic.ValueIdx Idealize.SL.Sem Idealize.ShloMosaic.StableHlo
open Cert.KernelIdeal Cert.KernelIdeal.Gen
open Cert.LibLinearLayer Cert.LibDenseProduct
open Cert.Gnn.Keeps

variable (m : (ℓ : Loc nD τ sig) → Buf (Elt Ideal) ℓ) (ρ : Dev nD → PrngReg) (c : Dev nD)

/-! ## The embedding -/

theorem in0_x : V1 m ρ c main_arg0 = aX m c := at1_arg m ρ c main_arg0 (by decide)
theorem in0_w : V1 m ρ c main_arg2 = aWe m c := at1_arg m ρ c main_arg2 (by decide)
theorem in0_b : V1 m ρ c main_v4 = row0 m c := row_at1 m ρ c
theorem h0_at2 : W2 m ρ c (Proc.devRef .tc main_v5) = kH0 m c := by
  refine (W2_arr m ρ c 3).trans ?_
  rw [Embed.result (V1 m ρ) c, in0_x, in0_w, in0_b]
  rfl

/-! ## The first graph layer -/

theorem in1_h : V3 m ρ c main_v5 = kH0 m c := (keep1 _ main_v5 (by decide)).trans (h0_at2 m ρ c)
theorem in1_wr : V3 m ρ c main_arg4 = aW1r m c :=
  (back3 m ρ c main_arg4 (by decide)).trans (at1_arg m ρ c main_arg4 (by decide))
theorem in1_wo : V3 m ρ c main_arg5 = aW1o m c :=
  (back3 m ρ c main_arg5 (by decide)).trans (at1_arg m ρ c main_arg5 (by decide))
theorem in1_b : V3 m ρ c main_v6 = row1 m c := by
  show after hostOps1 (W2 m ρ c) (Proc.devRef .tc main_v6) = _
  after_results
  rw [show W2 m ρ c (Proc.devRef .tc main_arg6) = aB1 m c from
    (W2_of_ne m ρ c main_arg6 (by decide)).trans (at1_arg m ρ c main_arg6 (by decide))]
  rfl

theorem m1_at4 : W4 m ρ c (Proc.devRef .tc main_v7_0) = mm (φ₁ := .f32) (φ₂ := .f32) (m := 100000) (k := 64) (n := 64) (kH0 m c) (aW1r m c) := by
  refine (W4_arr m ρ c 4).trans ?_
  rw [Dual1.result_msg (V3 m ρ) c, in1_h, in1_wr]
theorem r1_at4 : W4 m ρ c (Proc.devRef .tc main_v7_1) = lin (m := 100000) (k := 64) (n := 64) (kH0 m c) (aW1o m c) (biasRow (row1 m c)) := by
  refine (W4_arr m ρ c 5).trans ?_
  rw [Dual1.result_root (V3 m ρ) c, in1_h, in1_wo, in1_b]

theorem agg1_at7 : W7 m ρ c (Proc.devRef .tc main_v25)
    = Bridge.mean1 (aE m c) (Bridge.takeRows (mm (φ₁ := .f32) (φ₂ := .f32) (m := 100000) (k := 64) (n := 64) (kH0 m c) (aW1r m c)) (Bridge.edgeSrc1 (aE m c))) := by
  rw [← m1_at4 m ρ c]
  exact mean1_step (W4 m ρ c) (aE m c) ((back4 m ρ c main_v1 (by decide)).trans (src_at1 m ρ c))
    ((back4 m ρ c main_v3 (by decide)).trans (dst_at1 m ρ c))

theorem in2_r : V7 m ρ c main_v7_1 = lin (m := 100000) (k := 64) (n := 64) (kH0 m c) (aW1o m c) (biasRow (row1 m c)) :=
  (keep2b _ main_v7_1 (by decide)).trans ((keep2a _ main_v7_1 (by decide)).trans
    ((keep2 _ main_v7_1 (by decide)).trans (r1_at4 m ρ c)))
theorem h1_at8 : W8 m ρ c (Proc.devRef .tc main_v26) = kH1 m c := by
  refine (W8_arr m ρ c 2).trans ?_
  rw [Combine1.result (V7 m ρ) c, show V7 m ρ c main_v25 = _ from agg1_at7 m ρ c, in2_r]
  rfl

/-! ## The second graph layer -/

theorem in3_h : V9 m ρ c main_v26 = kH1 m c := (keep3 _ main_v26 (by decide)).trans (h1_at8 m ρ c)
theorem in3_wr : V9 m ρ c main_arg7 = aW2r m c :=
  (back9 m ρ c main_arg7 (by decide)).trans (at1_arg m ρ c main_arg7 (by decide))
theorem in3_wo : V9 m ρ c main_arg8 = aW2o m c :=
  (back9 m ρ c main_arg8 (by decide)).trans (at1_arg m ρ c main_arg8 (by decide))
theorem in3_b : V9 m ρ c main_v27 = row2 m c := by
  show after hostOps3 (W8 m ρ c) (Proc.devRef .tc main_v27) = _
  after_results
  rw [show W8 m ρ c (Proc.devRef .tc main_arg9) = aB2 m c from
    (W8_of_ne m ρ c main_arg9 (by decide)).trans ((back7 m ρ c main_arg9 (by decide)).trans (at1_arg m ρ c main_arg9 (by decide)))]
  rfl

theorem m2_at10 : W10 m ρ c (Proc.devRef .tc main_v28_0) = mm (φ₁ := .f32) (φ₂ := .f32) (m := 100000) (k := 64) (n := 64) (kH1 m c) (aW2r m c) := by
  refine (W10_arr m ρ c 4).trans ?_
  rw [Dual2.result_msg (V9 m ρ) c, in3_h, in3_wr]
theorem r2_at10 : W10 m ρ c (Proc.devRef .tc main_v28_1) = lin (m := 100000) (k := 64) (n := 64) (kH1 m c) (aW2o m c) (biasRow (row2 m c)) := by
  refine (W10_arr m ρ c 5).trans ?_
  rw [Dual2.result_root (V9 m ρ) c, in3_h, in3_wo, in3_b]

theorem agg2_at13 : W13 m ρ c (Proc.devRef .tc main_v46)
    = Bridge.mean2 (aE m c) (Bridge.takeRows (mm (φ₁ := .f32) (φ₂ := .f32) (m := 100000) (k := 64) (n := 64) (kH1 m c) (aW2r m c)) (Bridge.edgeSrc2 (aE m c))) := by
  rw [← m2_at10 m ρ c]
  exact mean2_step (W10 m ρ c) (aE m c) ((back10 m ρ c main_v1 (by decide)).trans (src_at1 m ρ c))
    ((back10 m ρ c main_v3 (by decide)).trans (dst_at1 m ρ c))

theorem in4_r : V13 m ρ c main_v28_1 = lin (m := 100000) (k := 64) (n := 64) (kH1 m c) (aW2o m c) (biasRow (row2 m c)) :=
  (keep4b _ main_v28_1 (by decide)).trans ((keep4a _ main_v28_1 (by decide)).trans
    ((keep4 _ main_v28_1 (by decide)).trans (r2_at10 m ρ c)))
theorem h2_at14 : W14 m ρ c (Proc.devRef .tc main_v47) = kH2 m c := by
  refine (W14_arr m ρ c 2).trans ?_
  rw [Combine2.result (V13 m ρ) c, show V13 m ρ c main_v46 = _ from agg2_at13 m ρ c, in4_r]
  rfl

/-! ## The output projection -/

theorem in5_h : V15 m ρ c main_v47 = kH2 m c := (keep5 _ main_v47 (by decide)).trans (h2_at14 m ρ c)
theorem in5_w : V15 m ρ c main_arg10 = aWout m c :=
  (back15 m ρ c main_arg10 (by decide)).trans (at1_arg m ρ c main_arg10 (by decide))
theorem in5_b : V15 m ρ c main_v48 = row3 m c := by
  show after hostOps5 (W14 m ρ c) (Proc.devRef .tc main_v48) = _
  after_results
  rw [show W14 m ρ c (Proc.devRef .tc main_arg11) = aBout m c from
    (W14_of_ne m ρ c main_arg11 (by decide)).trans ((keep4b _ main_arg11 (by decide)).trans ((keep4a _ main_arg11 (by decide)).trans
      ((keep4 _ main_arg11 (by decide)).trans ((back10 m ρ c main_arg11 (by decide)).trans (at1_arg m ρ c main_arg11 (by decide))))))]
  rfl

/-- The result array at the end of the run: the whole network of the twelve arguments, in the kernel's arrangement. -/
theorem result_eq : W16 m ρ c (Proc.devRef .tc main_v49)
    = Bridge.kOut (aX m c) (aE m c) (aWe m c) (aW1r m c) (aW1o m c) (aW2r m c) (aW2o m c) (aWout m c)
        (row0 m c) (row1 m c) (row2 m c) (row3 m c) := by
  refine (W16_arr m ρ c 3).trans ?_
  rw [Output.result (V15 m ρ) c, in5_h, in5_w, in5_b]
  rfl

end Cert.Gnn.Value

end
-- ==== Proof.lean ====
/-
  A two-layer graph network on 100000 nodes and 1600000 edges: an embedding x·W_emb + b_emb, two graph layers
      h' = max(mean over incoming edges of (source row of h)·W_rel  +  h·W_root + b, 0),
  and an output projection h·W_out + b_out. The mean scatters the per-edge rows onto their destination nodes, adds them
  and divides by the in-degree clamped below by one.

  The kernel runs the dense parts as six tiled steps over blocks of 10000 rows (embedding; per layer a step computing both
  projections and a step adding the mean to the root projection and clamping at zero; output), with the gather, the two
  scatter-adds and the division between them on the host. The reference is the same network written with whole-array host
  operations. Read as exact extended reals the two differ in two places: the kernel multiplies h by W_rel before taking the
  source rows, the reference after; and the kernel adds the bias to the root projection before adding the mean, the reference
  after. The first is no difference entry by entry, because the row taken for an edge depends on the edge list alone and
  row p of a product is the product of row p. The second is associativity of addition, which holds for extended reals with
  infinite values included — so the precondition is never opened.

  Modules. KernelBodies: each step's body as a function of its loaded blocks. Embed, Dual1, Combine1, Dual2, Combine2, Output:
  each step's output array as one function of its input arrays, from the blocks the grid points write back. KernelRun: the
  run of the program's segments with every buffer's final contents named. KernelKeeps: which buffers a host stretch leaves
  alone. KernelValue: the result array as a function of the twelve arguments. Bridge: that function is the reference's.
  The reference's run and its stages read one operation at a time are the generated modules imported below.
-/
import proofs.«134579_j37769942401472_1_alg».proof.Defs
import proofs.«134579_j37769942401472_1_alg».proof.Proof.Gen.Kernel
import proofs.«134579_j37769942401472_1_alg».proof.Proof.Gen.Kernel.Frame
import proofs.«134579_j37769942401472_1_alg».proof.Proof.Gen.KernelIdeal
import proofs.«134579_j37769942401472_1_alg».proof.Proof.Gen.KernelIdeal.Frame
import proofs.«134579_j37769942401472_1_alg».proof.Proof.Gen.ReferenceIdeal
import proofs.«134579_j37769942401472_1_alg».proof.Proof.Gen.ReferenceIdeal.Run
import proofs.«134579_j37769942401472_1_alg».proof.Proof.Gen.ReferenceIdeal.Read
import proofs.«134579_j37769942401472_1_alg».proof.Proof.Gen.Pre_finite_inputs
import proofs.«134579_j37769942401472_1_alg».proof.Proof.KernelRun
import proofs.«134579_j37769942401472_1_alg».proof.Proof.KernelValue
import proofs.«134579_j37769942401472_1_alg».proof.Proof.Bridge
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel := fun m ρ _ => Cert.Kernel.Gen.frame m ρ

/-- So does its reading at the ideal values. -/
theorem frame_ideal : Cert.frame_KernelIdeal := fun m ρ _ => Cert.KernelIdeal.Gen.frame m ρ

/-- The reference is a line of host operations: it runs, and its run's statement includes the unchanged arguments. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the twelve arguments both programs end with the same result array: the kernel's final result
    buffer holds the network in the kernel's arrangement, the reference's the network in its own, and the two are one
    function of the arguments. -/
theorem algebraic : Cert.algebraic_KernelIdeal_ReferenceIdeal := by
  intro m ρ m' ρ' _ hagree
  refine ⟨fun c => Cert.KernelIdeal.Gen.W16 m ρ c (Proc.devRef .tc Cert.KernelIdeal.main_v49), Cert.Gnn.Run.run_result m ρ, ?_⟩
  refine (θ_run Cert.ReferenceIdeal.defs _ _).mono (fun _ h c => ⟨(h c).1.trans ?_, (h c).2⟩)
    (Cert.ReferenceIdeal.Value.run (F := Ideal) m' ρ')
  have hk := Cert.Gnn.Value.result_eq m ρ c
  have hb := Cert.Gnn.Bridge.kOut_eq (Cert.Gnn.Value.aX m c) (Cert.Gnn.Value.aE m c) (Cert.Gnn.Value.aWe m c) (Cert.Gnn.Value.aBe m c)
    (Cert.Gnn.Value.aW1r m c) (Cert.Gnn.Value.aW1o m c) (Cert.Gnn.Value.aB1 m c) (Cert.Gnn.Value.aW2r m c) (Cert.Gnn.Value.aW2o m c)
    (Cert.Gnn.Value.aB2 m c) (Cert.Gnn.Value.aWout m c) (Cert.Gnn.Value.aBout m c)
    (Cert.Gnn.Value.row0 m c) (Cert.Gnn.Value.row1 m c) (Cert.Gnn.Value.row2 m c) (Cert.Gnn.Value.row3 m c)
    (Cert.Gnn.Value.row0_at m c) (Cert.Gnn.Value.row1_at m c) (Cert.Gnn.Value.row2_at m c) (Cert.Gnn.Value.row3_at m c)
  obtain ⟨a0, a1, a2, a3, a4, a5, a6, a7, a8, a9, a10, a11⟩ := hagree c
  rw [Cert.ReferenceIdeal.Read.val_main_v61_eq, a0, a1, a2, a3, a4, a5, a6, a7, a8, a9, a10, a11]
  exact hb.symm.trans hk.symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
